-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S64x1 .f32) (main_arg14 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x64 .f32) (main_arg10 : FVec F S64 .f32) (main_arg11 : FVec F S64x1 .f32) (main_arg12 : FVec F S1 .f32) (main_arg13 : FVec F S64x1 .f32) (main_arg14 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) (main_arg13 : FVec F S64x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) (main_arg13 : FVec F S64x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x2 : Shape := ⟨2, ![50000, 2]⟩
abbrev S800000x128 : Shape := ⟨2, ![800000, 128]⟩
abbrev S1x128 : Shape := ⟨2, ![1, 128]⟩
abbrev S5000x128 : Shape := ⟨2, ![5000, 128]⟩
abbrev S5000x2 : Shape := ⟨2, ![5000, 2]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩
abbrev S1x1 : Shape := ⟨2, ![1, 1]⟩

abbrev nBuf : Space → Nat
  | .hbm => 111
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S64x1, .f32⟩
  | .hbm, ⟨14, _⟩ => ⟨S1, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x1, .f32⟩
  | .hbm, ⟨41, _⟩ => ⟨S50000x2, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x128, .f32⟩
  | .hbm, ⟨99, _⟩ => ⟨S_, .f32⟩
  | .hbm, ⟨100, _⟩ => ⟨S50000x128, .f32⟩
  | .hbm, ⟨101, _⟩ => ⟨S800000x1, .i32⟩
  | .hbm, ⟨102, _⟩ => ⟨S50000x128, .f32⟩
  | .hbm, ⟨103, _⟩ => ⟨S1x64, .f32⟩
  | .hbm, ⟨104, _⟩ => ⟨S50000x64, .f32⟩
  | .hbm, ⟨105, _⟩ => ⟨S1x1, .f32⟩
  | .hbm, ⟨106, _⟩ => ⟨S50000x1, .f32⟩
  | .hbm, ⟨107, _⟩ => ⟨S1x64, .f32⟩
  | .hbm, ⟨108, _⟩ => ⟨S1x1, .f32⟩
  | .hbm, ⟨109, _⟩ => ⟨S1x1, .f32⟩
  | .hbm, ⟨110, _⟩ => ⟨S1x1, .f32⟩
  | .local _ .vmem, ⟨0, _⟩ => ⟨S5000x128, .f32⟩
  | .local _ .vmem, ⟨1, _⟩ => ⟨S5000x128, .f32⟩
  | .local _ .vmem, ⟨2, _⟩ => ⟨S5000x2, .f32⟩
  | .local _ .vmem, ⟨3, _⟩ => ⟨S5000x2, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x2, .f32⟩
  | .local _ .vmem, ⟨11, _⟩ => ⟨S5000x2, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x2, .f32⟩
  | .local _ .vmem, ⟨19, _⟩ => ⟨S5000x2, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x2, .f32⟩
  | .local _ .vmem, ⟨27, _⟩ => ⟨S5000x2, .f32⟩
  | .local _ .vmem, ⟨28, _⟩ => ⟨S128x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x1, .f32⟩
  | .local _ .vmem, ⟨35, _⟩ => ⟨S1x1, .f32⟩
  | .local _ .vmem, ⟨36, _⟩ => ⟨S5000x1, .f32⟩
  | .local _ .vmem, ⟨37, _⟩ => ⟨S5000x1, .f32⟩
  | .local _ .vmem, ⟨38, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v7 : Ref sig .tc := ⟨.hbm, 28, rfl⟩
abbrev main_cst_3 : Ref sig .tc := ⟨.hbm, 29, rfl⟩
abbrev main_v8 : Ref sig .tc := ⟨.hbm, 30, rfl⟩
abbrev main_v9 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v10 : Ref sig .tc := ⟨.hbm, 35, rfl⟩
abbrev main_cst_5 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_6 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_7 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_8 : Ref sig .tc := ⟨.hbm, 60, rfl⟩
abbrev main_v31 : Ref sig .tc := ⟨.hbm, 61, rfl⟩
abbrev main_v32 : Ref sig .tc := ⟨.hbm, 62, rfl⟩
abbrev main_c_9 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_10 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_11 : Ref sig .tc := ⟨.hbm, 75, rfl⟩
abbrev main_v43 : Ref sig .tc := ⟨.hbm, 76, rfl⟩
abbrev main_v44 : Ref sig .tc := ⟨.hbm, 77, rfl⟩
abbrev main_c_12 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_13 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_14 : Ref sig .tc := ⟨.hbm, 90, rfl⟩
abbrev main_v55 : Ref sig .tc := ⟨.hbm, 91, rfl⟩
abbrev main_v56 : Ref sig .tc := ⟨.hbm, 92, rfl⟩
abbrev main_c_15 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_16 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68_0 : Ref sig .tc := ⟨.hbm, 106, rfl⟩
abbrev main_v68_1 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S5000x2_o0_1_S5000x1 : S5000x2.Slices ![0, 1] S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5000x2_o0_0_S5000x1 : S5000x2.Slices ![0, 0] S5000x1
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S1_S1x1 : S1.ShapeCasts S1x1
  shapeCasts_S5000x64_S5000x64 : S5000x64.ShapeCasts S5000x64
  reduces_S5000x64_S64 : S5000x64.Reduces [0] S64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S1_S1x1_1 : S1.BroadcastsInDim S1x1 (![1] : Fin 1 → Fin S1x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S50000x2.size a
  hwx0_1 : ∀ i : grid0.Coords, EltTy.bits .f32 = 32 ∨ (Rect.block (s := S50000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S50000x2.size a
  hwx1_1 : ∀ i : grid1.Coords, EltTy.bits .f32 = 32 ∨ (Rect.block (s := S50000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S50000x2.size a
  hwx2_1 : ∀ i : grid2.Coords, EltTy.bits .f32 = 32 ∨ (Rect.block (s := S50000x2) S5000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x2.size a ≤ S50000x2.size a
  hwx3_1 : ∀ i : grid3.Coords, EltTy.bits .f32 = 32 ∨ (Rect.block (s := S50000x2) S5000x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68_0) S5000x1.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v68_1) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S64x1, .f32⟩
  | 14 => ⟨S1, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x1, .f32⟩
  | 41 => ⟨S50000x128, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S50000x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S50000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S64, .f32⟩
  | 8 => ⟨S1x64, .f32⟩
  | 9 => ⟨S50000x1, .f32⟩
  | 10 => ⟨S1x1, .f32⟩
  | 11 => ⟨S50000x1, .f32⟩
  | 12 => ⟨S50000x1, .f32⟩
  | 13 => ⟨S1x1, .f32⟩
  | 14 => ⟨S1x1, .f32⟩
  | 15 => ⟨S1x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v7 : Ref sig .tc := ⟨.hbm, 28, rfl⟩
abbrev main_cst_3 : Ref sig .tc := ⟨.hbm, 29, rfl⟩
abbrev main_v8 : Ref sig .tc := ⟨.hbm, 30, rfl⟩
abbrev main_v9 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v10 : Ref sig .tc := ⟨.hbm, 35, rfl⟩
abbrev main_cst_5 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_7 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call2_cst : Ref sig .tc := ⟨.hbm, 62, rfl⟩
abbrev main_call2_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_8 : Ref sig .tc := ⟨.hbm, 67, rfl⟩
abbrev main_v36 : Ref sig .tc := ⟨.hbm, 68, rfl⟩
abbrev main_v37 : Ref sig .tc := ⟨.hbm, 69, rfl⟩
abbrev main_c_9 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call3_cst : Ref sig .tc := ⟨.hbm, 86, rfl⟩
abbrev main_call3_v0 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_11 : Ref sig .tc := ⟨.hbm, 91, rfl⟩
abbrev main_v55 : Ref sig .tc := ⟨.hbm, 92, rfl⟩
abbrev main_v56 : Ref sig .tc := ⟨.hbm, 93, rfl⟩
abbrev main_c_12 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_13 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_call4_cst : Ref sig .tc := ⟨.hbm, 110, rfl⟩
abbrev main_call4_v0 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_14 : Ref sig .tc := ⟨.hbm, 115, rfl⟩
abbrev main_v74 : Ref sig .tc := ⟨.hbm, 116, rfl⟩
abbrev main_v75 : Ref sig .tc := ⟨.hbm, 117, rfl⟩
abbrev main_c_15 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_16 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_17 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []
  dot_S1x64_S64x1_S1x1_1_0_0_1_n_n_wf : DotDims.WF S1x64 S64x1 S1x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.KernelChain.lean ====
/-
  The contents of the idealized program's buffers at the segment boundaries, read where the results need them.

  Between two kernel regions the host gathers the rows of the previous layer's output along the edge
  sources and adds them into the rows named by the edge destinations; the normalisers, the weights, the
  biases and the edge lists are never overwritten, so at every boundary they hold what the first stretch of
  host operations computed, or what was launched.
-/
import proofs.«134515_j11364483465281_1_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch of host operations leaves alone a buffer none of its operations writes. -/
macro "stretch_keeps" : tactic => `(tactic|
  (refine StableHlo.after_of_forall_not_mem _ _ (List.forall_iff_forall_mem.mp ?_)
   simp only [hostOps0, hostOps0_1, hostOps0_2, hostOps0_3, hostOps0_4, hostOps1, hostOps2, hostOps3, hostOps4, hostOps5,
     List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The host operations between the regions, as functions -/

section HostFunctions

/-- The normaliser of one end of the edges: each node's count of edges ending there (a scatter of ones), clamped
    below at one, to the power minus one half. -/
def degNorm (idx : (⟨S800000, .i32⟩ : BufTy).Contents (Elt F)) : (⟨S50000, .f32⟩ : BufTy).Contents (Elt F) :=
  Host.powf
    (maximumf (broadcastInDim S50000 ![] bcast_S_S50000 (id (constant S_ .f32 0x3F800000#32)))
      (Host.scatterAdd scatter_S50000_S800000x1_S800000_n_0_0_1
        (broadcastInDim S50000 ![] bcast_S_S50000 (constant S_ .f32 0x00000000#32))
        (broadcastInDim S800000x1 ![0] bcast_S800000_S800000x1_0 idx)
        (broadcastInDim S800000 ![] bcast_S_S800000 (constant S_ .f32 0x3F800000#32))))
    (broadcastInDim S50000 ![] bcast_S_S50000 (constant S_ .f32 0xBF000000#32))

/-- A per-node vector as a column. -/
def asColumn (v : (⟨S50000, .f32⟩ : BufTy).Contents (Elt F)) : (⟨S50000x1, .f32⟩ : BufTy).Contents (Elt F) :=
  broadcastInDim S50000x1 ![0] bcast_S50000_S50000x1_0 v

/-- The two normalisers side by side: column 0 from the edge sources, column 1 from the edge destinations. -/
def normPair (src dst : (⟨S800000, .i32⟩ : BufTy).Contents (Elt F)) : (⟨S50000x2, .f32⟩ : BufTy).Contents (Elt F) :=
  concatenate S50000x2 1 [⟨S50000x1, asColumn (degNorm src)⟩, ⟨S50000x1, asColumn (degNorm dst)⟩] concatenates_S50000x1_S50000x1_S50000x2_d1

/-- The input features with each node's row scaled by its source-side normaliser. -/
def scaledFeatures (x : (⟨S50000x128, .f32⟩ : BufTy).Contents (Elt F)) (src : (⟨S800000, .i32⟩ : BufTy).Contents (Elt F)) :
    (⟨S50000x128, .f32⟩ : BufTy).Contents (Elt F) :=
  mulf x (broadcastInDim S50000x128 ![0, 1] bcast_S50000x1_S50000x128_0_1 (asColumn (degNorm src)))

/-- Message passing: the rows of `h` gathered along the edge sources (a negative index counted from the end) and
    added into the rows the edge destinations name. -/
def edgeSum (h : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The pooled value: the pooled row times the value weights, plus the value bias. -/
def valueHead (pooled : (⟨S1x64, .f32⟩ : BufTy).Contents (Elt F)) (Wv : (⟨S64x1, .f32⟩ : BufTy).Contents (Elt F))
    (bv : (⟨S1, .f32⟩ : BufTy).Contents (Elt F)) : (⟨S1x1, .f32⟩ : BufTy).Contents (Elt F) :=
  addf (Host.dotGeneral dot_S1x64_S64x1_S1x1_1_0_0_1_n_n none pooled Wv) (broadcastInDim S1x1 ![1] bcast_S1_S1x1_1 bv)

end HostFunctions

/-! ## Buffers nothing overwrites -/

/-- Nothing up to boundary 5 writes `main_arg3`: it still holds what was launched. -/
theorem at5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by stretch_keeps
    _ = W3 m ρ c (Proc.devRef .tc main_arg3) := by stretch_keeps
    _ = W2 m ρ c (Proc.devRef .tc main_arg3) := by stretch_keeps
    _ = W1 m ρ c (Proc.devRef .tc main_arg3) := by stretch_keeps
    _ = W0 m ρ c (Proc.devRef .tc main_arg3) := by stretch_keeps
    _ = m ((c : Thread nD τ).loc main_arg3) := rfl

/-- Nothing up to boundary 6 writes `main_arg1`: it still holds what was launched. -/
theorem at6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by stretch_keeps
    _ = W3 m ρ c (Proc.devRef .tc main_arg1) := by stretch_keeps
    _ = W2 m ρ c (Proc.devRef .tc main_arg1) := by stretch_keeps
    _ = W1 m ρ c (Proc.devRef .tc main_arg1) := by stretch_keeps
    _ = W0 m ρ c (Proc.devRef .tc main_arg1) := by stretch_keeps
    _ = m ((c : Thread nD τ).loc main_arg1) := rfl

/-- Nothing up to boundary 6 writes `main_arg2`: it still holds what was launched. -/
theorem at6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by stretch_keeps
    _ = W3 m ρ c (Proc.devRef .tc main_arg2) := by stretch_keeps
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl

/-- Nothing up to boundary 6 writes `main_arg5`: it still holds what was launched. -/
theorem at6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by stretch_keeps
    _ = W3 m ρ c (Proc.devRef .tc main_arg5) := by stretch_keeps
    _ = W2 m ρ c (Proc.devRef .tc main_arg5) := by stretch_keeps
    _ = W1 m ρ c (Proc.devRef .tc main_arg5) := by stretch_keeps
    _ = W0 m ρ c (Proc.devRef .tc main_arg5) := by stretch_keeps
    _ = m ((c : Thread nD τ).loc main_arg5) := rfl

/-- Nothing up to boundary 6 writes `main_arg6`: it still holds what was launched. -/
theorem at6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by stretch_keeps
    _ = W3 m ρ c (Proc.devRef .tc main_arg6) := by stretch_keeps
    _ = W2 m ρ c (Proc.devRef .tc main_arg6) := by stretch_keeps
    _ = W1 m ρ c (Proc.devRef .tc main_arg6) := by stretch_keeps
    _ = W0 m ρ c (Proc.devRef .tc main_arg6) := by stretch_keeps
    _ = m ((c : Thread nD τ).loc main_arg6) := rfl

/-- Nothing up to boundary 8 writes `main_arg1`: it still holds what was launched. -/
theorem at8_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := by stretch_keeps
    _ = W5 m ρ c (Proc.devRef .tc main_arg1) := W6_of_ne m ρ c main_arg1 (by decide)
    _ = W4 m ρ c (Proc.devRef .tc main_arg1) := by stretch_keeps
    _ = W3 m ρ c (Proc.devRef .tc main_arg1) := by stretch_keeps
    _ = W2 m ρ c (Proc.devRef .tc main_arg1) := by stretch_keeps
    _ = W1 m ρ c (Proc.devRef .tc main_arg1) := by stretch_keeps
    _ = W0 m ρ c (Proc.devRef .tc main_arg1) := by stretch_keeps
    _ = m ((c : Thread nD τ).loc main_arg1) := rfl

/-- Nothing up to boundary 8 writes `main_arg2`: it still holds what was launched. -/
theorem at8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by stretch_keeps
    _ = W5 m ρ c (Proc.devRef .tc main_arg2) := W6_of_ne m ρ c main_arg2 (by decide)
    _ = W4 m ρ c (Proc.devRef .tc main_arg2) := by stretch_keeps
    _ = W3 m ρ c (Proc.devRef .tc main_arg2) := by stretch_keeps
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl

/-- Nothing up to boundary 8 writes `main_arg7`: it still holds what was launched. -/
theorem at8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by stretch_keeps
    _ = W5 m ρ c (Proc.devRef .tc main_arg7) := W6_of_ne m ρ c main_arg7 (by decide)
    _ = W4 m ρ c (Proc.devRef .tc main_arg7) := by stretch_keeps
    _ = W3 m ρ c (Proc.devRef .tc main_arg7) := by stretch_keeps
    _ = W2 m ρ c (Proc.devRef .tc main_arg7) := by stretch_keeps
    _ = W1 m ρ c (Proc.devRef .tc main_arg7) := by stretch_keeps
    _ = W0 m ρ c (Proc.devRef .tc main_arg7) := by stretch_keeps
    _ = m ((c : Thread nD τ).loc main_arg7) := rfl

/-- Nothing up to boundary 8 writes `main_arg8`: it still holds what was launched. -/
theorem at8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by stretch_keeps
    _ = W5 m ρ c (Proc.devRef .tc main_arg8) := W6_of_ne m ρ c main_arg8 (by decide)
    _ = W4 m ρ c (Proc.devRef .tc main_arg8) := by stretch_keeps
    _ = W3 m ρ c (Proc.devRef .tc main_arg8) := by stretch_keeps
    _ = W2 m ρ c (Proc.devRef .tc main_arg8) := by stretch_keeps
    _ = W1 m ρ c (Proc.devRef .tc main_arg8) := by stretch_keeps
    _ = W0 m ρ c (Proc.devRef .tc main_arg8) := by stretch_keeps
    _ = m ((c : Thread nD τ).loc main_arg8) := rfl

/-- Nothing up to boundary 10 writes `main_arg1`: it still holds what was launched. -/
theorem at10_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := by stretch_keeps
    _ = W7 m ρ c (Proc.devRef .tc main_arg1) := W8_of_ne m ρ c main_arg1 (by decide)
    _ = W6 m ρ c (Proc.devRef .tc main_arg1) := by stretch_keeps
    _ = W5 m ρ c (Proc.devRef .tc main_arg1) := W6_of_ne m ρ c main_arg1 (by decide)
    _ = W4 m ρ c (Proc.devRef .tc main_arg1) := by stretch_keeps
    _ = W3 m ρ c (Proc.devRef .tc main_arg1) := by stretch_keeps
    _ = W2 m ρ c (Proc.devRef .tc main_arg1) := by stretch_keeps
    _ = W1 m ρ c (Proc.devRef .tc main_arg1) := by stretch_keeps
    _ = W0 m ρ c (Proc.devRef .tc main_arg1) := by stretch_keeps
    _ = m ((c : Thread nD τ).loc main_arg1) := rfl

/-- Nothing up to boundary 10 writes `main_arg2`: it still holds what was launched. -/
theorem at10_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := by stretch_keeps
    _ = W7 m ρ c (Proc.devRef .tc main_arg2) := W8_of_ne m ρ c main_arg2 (by decide)
    _ = W6 m ρ c (Proc.devRef .tc main_arg2) := by stretch_keeps
    _ = W5 m ρ c (Proc.devRef .tc main_arg2) := W6_of_ne m ρ c main_arg2 (by decide)
    _ = W4 m ρ c (Proc.devRef .tc main_arg2) := by stretch_keeps
    _ = W3 m ρ c (Proc.devRef .tc main_arg2) := by stretch_keeps
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl

/-- Nothing up to boundary 10 writes `main_arg9`: it still holds what was launched. -/
theorem at10_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := by stretch_keeps
    _ = W7 m ρ c (Proc.devRef .tc main_arg9) := W8_of_ne m ρ c main_arg9 (by decide)
    _ = W6 m ρ c (Proc.devRef .tc main_arg9) := by stretch_keeps
    _ = W5 m ρ c (Proc.devRef .tc main_arg9) := W6_of_ne m ρ c main_arg9 (by decide)
    _ = W4 m ρ c (Proc.devRef .tc main_arg9) := by stretch_keeps
    _ = W3 m ρ c (Proc.devRef .tc main_arg9) := by stretch_keeps
    _ = W2 m ρ c (Proc.devRef .tc main_arg9) := by stretch_keeps
    _ = W1 m ρ c (Proc.devRef .tc main_arg9) := by stretch_keeps
    _ = W0 m ρ c (Proc.devRef .tc main_arg9) := by stretch_keeps
    _ = m ((c : Thread nD τ).loc main_arg9) := rfl

/-- Nothing up to boundary 10 writes `main_arg10`: it still holds what was launched. -/
theorem at10_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := by stretch_keeps
    _ = W7 m ρ c (Proc.devRef .tc main_arg10) := W8_of_ne m ρ c main_arg10 (by decide)
    _ = W6 m ρ c (Proc.devRef .tc main_arg10) := by stretch_keeps
    _ = W5 m ρ c (Proc.devRef .tc main_arg10) := W6_of_ne m ρ c main_arg10 (by decide)
    _ = W4 m ρ c (Proc.devRef .tc main_arg10) := by stretch_keeps
    _ = W3 m ρ c (Proc.devRef .tc main_arg10) := by stretch_keeps
    _ = W2 m ρ c (Proc.devRef .tc main_arg10) := by stretch_keeps
    _ = W1 m ρ c (Proc.devRef .tc main_arg10) := by stretch_keeps
    _ = W0 m ρ c (Proc.devRef .tc main_arg10) := by stretch_keeps
    _ = m ((c : Thread nD τ).loc main_arg10) := rfl

/-- Nothing up to boundary 12 writes `main_arg11`: it still holds what was launched. -/
theorem at12_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := by stretch_keeps
    _ = W9 m ρ c (Proc.devRef .tc main_arg11) := W10_of_ne m ρ c main_arg11 (by decide)
    _ = W8 m ρ c (Proc.devRef .tc main_arg11) := by stretch_keeps
    _ = W7 m ρ c (Proc.devRef .tc main_arg11) := W8_of_ne m ρ c main_arg11 (by decide)
    _ = W6 m ρ c (Proc.devRef .tc main_arg11) := by stretch_keeps
    _ = W5 m ρ c (Proc.devRef .tc main_arg11) := W6_of_ne m ρ c main_arg11 (by decide)
    _ = W4 m ρ c (Proc.devRef .tc main_arg11) := by stretch_keeps
    _ = W3 m ρ c (Proc.devRef .tc main_arg11) := by stretch_keeps
    _ = W2 m ρ c (Proc.devRef .tc main_arg11) := by stretch_keeps
    _ = W1 m ρ c (Proc.devRef .tc main_arg11) := by stretch_keeps
    _ = W0 m ρ c (Proc.devRef .tc main_arg11) := by stretch_keeps
    _ = m ((c : Thread nD τ).loc main_arg11) := rfl

/-- Nothing up to boundary 12 writes `main_arg12`: it still holds what was launched. -/
theorem at12_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := by stretch_keeps
    _ = W9 m ρ c (Proc.devRef .tc main_arg12) := W10_of_ne m ρ c main_arg12 (by decide)
    _ = W8 m ρ c (Proc.devRef .tc main_arg12) := by stretch_keeps
    _ = W7 m ρ c (Proc.devRef .tc main_arg12) := W8_of_ne m ρ c main_arg12 (by decide)
    _ = W6 m ρ c (Proc.devRef .tc main_arg12) := by stretch_keeps
    _ = W5 m ρ c (Proc.devRef .tc main_arg12) := W6_of_ne m ρ c main_arg12 (by decide)
    _ = W4 m ρ c (Proc.devRef .tc main_arg12) := by stretch_keeps
    _ = W3 m ρ c (Proc.devRef .tc main_arg12) := by stretch_keeps
    _ = W2 m ρ c (Proc.devRef .tc main_arg12) := by stretch_keeps
    _ = W1 m ρ c (Proc.devRef .tc main_arg12) := by stretch_keeps
    _ = W0 m ρ c (Proc.devRef .tc main_arg12) := by stretch_keeps
    _ = m ((c : Thread nD τ).loc main_arg12) := rfl

/-- Nothing up to boundary 14 writes `main_arg13`: it still holds what was launched. -/
theorem at14_arg13 (c : Dev nD) : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = W12 m ρ c (Proc.devRef .tc main_arg13) := by stretch_keeps
    _ = W11 m ρ c (Proc.devRef .tc main_arg13) := W12_of_ne m ρ c main_arg13 (by decide)
    _ = W10 m ρ c (Proc.devRef .tc main_arg13) := by stretch_keeps
    _ = W9 m ρ c (Proc.devRef .tc main_arg13) := W10_of_ne m ρ c main_arg13 (by decide)
    _ = W8 m ρ c (Proc.devRef .tc main_arg13) := by stretch_keeps
    _ = W7 m ρ c (Proc.devRef .tc main_arg13) := W8_of_ne m ρ c main_arg13 (by decide)
    _ = W6 m ρ c (Proc.devRef .tc main_arg13) := by stretch_keeps
    _ = W5 m ρ c (Proc.devRef .tc main_arg13) := W6_of_ne m ρ c main_arg13 (by decide)
    _ = W4 m ρ c (Proc.devRef .tc main_arg13) := by stretch_keeps
    _ = W3 m ρ c (Proc.devRef .tc main_arg13) := by stretch_keeps
    _ = W2 m ρ c (Proc.devRef .tc main_arg13) := by stretch_keeps
    _ = W1 m ρ c (Proc.devRef .tc main_arg13) := by stretch_keeps
    _ = W0 m ρ c (Proc.devRef .tc main_arg13) := by stretch_keeps
    _ = m ((c : Thread nD τ).loc main_arg13) := rfl

/-- Nothing up to boundary 14 writes `main_arg14`: it still holds what was launched. -/
theorem at14_arg14 (c : Dev nD) : W14 m ρ c (Proc.devRef .tc main_arg14) = m ((c : Thread nD τ).loc main_arg14) :=
  calc W14 m ρ c (Proc.devRef .tc main_arg14)
    _ = W13 m ρ c (Proc.devRef .tc main_arg14) := W14_of_ne m ρ c main_arg14 (by decide)
    _ = W12 m ρ c (Proc.devRef .tc main_arg14) := by stretch_keeps
    _ = W11 m ρ c (Proc.devRef .tc main_arg14) := W12_of_ne m ρ c main_arg14 (by decide)
    _ = W10 m ρ c (Proc.devRef .tc main_arg14) := by stretch_keeps
    _ = W9 m ρ c (Proc.devRef .tc main_arg14) := W10_of_ne m ρ c main_arg14 (by decide)
    _ = W8 m ρ c (Proc.devRef .tc main_arg14) := by stretch_keeps
    _ = W7 m ρ c (Proc.devRef .tc main_arg14) := W8_of_ne m ρ c main_arg14 (by decide)
    _ = W6 m ρ c (Proc.devRef .tc main_arg14) := by stretch_keeps
    _ = W5 m ρ c (Proc.devRef .tc main_arg14) := W6_of_ne m ρ c main_arg14 (by decide)
    _ = W4 m ρ c (Proc.devRef .tc main_arg14) := by stretch_keeps
    _ = W3 m ρ c (Proc.devRef .tc main_arg14) := by stretch_keeps
    _ = W2 m ρ c (Proc.devRef .tc main_arg14) := by stretch_keeps
    _ = W1 m ρ c (Proc.devRef .tc main_arg14) := by stretch_keeps
    _ = W0 m ρ c (Proc.devRef .tc main_arg14) := by stretch_keeps
    _ = m ((c : Thread nD τ).loc main_arg14) := rfl

/-- Nothing between the first region's entry and boundary 6 changes the normalisers' array: the regions only read it. -/
theorem at6_v15 (c : Dev nD) : W6 m ρ c (Proc.devRef .tc main_v15) = W5 m ρ c (Proc.devRef .tc main_v15) :=
  calc W6 m ρ c (Proc.devRef .tc main_v15)
    _ = W5 m ρ c (Proc.devRef .tc main_v15) := (W6_arr m ρ c 1).trans (((dat0 (V5 m ρ) c).arrAt_in 1 rfl _).trans (A_eq0 (V5 m ρ) c 1))

/-- Nothing between the first region's entry and boundary 8 changes the normalisers' array: the regions only read it. -/
theorem at8_v15 (c : Dev nD) : W8 m ρ c (Proc.devRef .tc main_v15) = W5 m ρ c (Proc.devRef .tc main_v15) :=
  calc W8 m ρ c (Proc.devRef .tc main_v15)
    _ = W7 m ρ c (Proc.devRef .tc main_v15) := (W8_arr m ρ c 1).trans (((dat1 (V7 m ρ) c).arrAt_in 1 rfl _).trans (A_eq1 (V7 m ρ) c 1))
    _ = W6 m ρ c (Proc.devRef .tc main_v15) := by stretch_keeps
    _ = W5 m ρ c (Proc.devRef .tc main_v15) := (W6_arr m ρ c 1).trans (((dat0 (V5 m ρ) c).arrAt_in 1 rfl _).trans (A_eq0 (V5 m ρ) c 1))

/-- Nothing between the first region's entry and boundary 10 changes the normalisers' array: the regions only read it. -/
theorem at10_v15 (c : Dev nD) : W10 m ρ c (Proc.devRef .tc main_v15) = W5 m ρ c (Proc.devRef .tc main_v15) :=
  calc W10 m ρ c (Proc.devRef .tc main_v15)
    _ = W9 m ρ c (Proc.devRef .tc main_v15) := (W10_arr m ρ c 1).trans (((dat2 (V9 m ρ) c).arrAt_in 1 rfl _).trans (A_eq2 (V9 m ρ) c 1))
    _ = W8 m ρ c (Proc.devRef .tc main_v15) := by stretch_keeps
    _ = W7 m ρ c (Proc.devRef .tc main_v15) := (W8_arr m ρ c 1).trans (((dat1 (V7 m ρ) c).arrAt_in 1 rfl _).trans (A_eq1 (V7 m ρ) c 1))
    _ = W6 m ρ c (Proc.devRef .tc main_v15) := by stretch_keeps
    _ = W5 m ρ c (Proc.devRef .tc main_v15) := (W6_arr m ρ c 1).trans (((dat0 (V5 m ρ) c).arrAt_in 1 rfl _).trans (A_eq0 (V5 m ρ) c 1))

/-! ## What each region finds at its entry -/

/-- Region 0's aggregate: message passing over the scaled input features. -/
theorem in5_v28 (c : Dev nD) :
    V5 m ρ c main_v28 = edgeSum (scaledFeatures (m ((c : Thread nD τ).loc main_arg0)) (m ((c : Thread nD τ).loc main_arg1))) (m ((c : Thread nD τ).loc main_arg1)) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v28) = _
  simp only [hostOps0, hostOps0_1, hostOps0_2, hostOps0_3, hostOps0_4]
  after_results_simp
  rfl

/-- The normalisers' array, written once by the first stretch. -/
theorem in5_v15 (c : Dev nD) :
    V5 m ρ c main_v15 = normPair (m ((c : Thread nD τ).loc main_arg1)) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v15) = _
  simp only [hostOps0, hostOps0_1, hostOps0_2, hostOps0_3, hostOps0_4]
  after_results_simp
  rfl

/-- Region 0's bias, as a row. -/
theorem in5_v29 (c : Dev nD) :
    V5 m ρ c main_v29 = shapeCast S1x128 (m ((c : Thread nD τ).loc main_arg4)) shapeCasts_S128_S1x128 := by
  show StableHlo.after hostOps0_4 (StableHlo.after hostOps0_3 (StableHlo.after hostOps0_2 (StableHlo.after hostOps0_1
    (StableHlo.after hostOps0 (W0 m ρ c))))) (Proc.devRef .tc main_v29) = _
  simp only [hostOps0, hostOps0_1, hostOps0_2, hostOps0_3, hostOps0_4]
  after_results_simp
  rfl

/-- Region 0's weights. -/
theorem in5_arg3 (c : Dev nD) : V5 m ρ c main_arg3 = m ((c : Thread nD τ).loc main_arg3) := at5_arg3 m ρ c

/-- Region 1's aggregate: message passing over what region 0 left. -/
theorem in7_v40 (c : Dev nD) :
    V7 m ρ c main_v40 = edgeSum ((dat0 (V5 m ρ) c).arrAt 4 cfg0.N) (m ((c : Thread nD τ).loc main_arg1)) (m ((c : Thread nD τ).loc main_arg2)) := by
  have h : V7 m ρ c main_v40 = edgeSum (W6 m ρ c (Proc.devRef .tc main_v30)) (W6 m ρ c (Proc.devRef .tc main_arg1)) (W6 m ρ c (Proc.devRef .tc main_arg2)) := by
    show StableHlo.after hostOps1 (W6 m ρ c) (Proc.devRef .tc main_v40) = _
    simp only [hostOps1]
    after_results_simp
    rfl
  rw [h, at6_arg1 m ρ c, at6_arg2 m ρ c, W6_arr m ρ c 4]

/-- The normalisers' array at region 1's entry. -/
theorem in7_v15 (c : Dev nD) : V7 m ρ c main_v15 = normPair (m ((c : Thread nD τ).loc main_arg1)) (m ((c : Thread nD τ).loc main_arg2)) :=
  calc V7 m ρ c main_v15
    _ = W6 m ρ c (Proc.devRef .tc main_v15) := by stretch_keeps
    _ = W5 m ρ c (Proc.devRef .tc main_v15) := at6_v15 m ρ c
    _ = normPair (m ((c : Thread nD τ).loc main_arg1)) (m ((c : Thread nD τ).loc main_arg2)) := in5_v15 m ρ c

/-- Region 1's weights. -/
theorem in7_arg5 (c : Dev nD) : V7 m ρ c main_arg5 = m ((c : Thread nD τ).loc main_arg5) :=
  calc V7 m ρ c main_arg5
    _ = W6 m ρ c (Proc.devRef .tc main_arg5) := by stretch_keeps
    _ = m ((c : Thread nD τ).loc main_arg5) := at6_arg5 m ρ c

/-- Region 1's bias, as a row. -/
theorem in7_v41 (c : Dev nD) :
    V7 m ρ c main_v41 = shapeCast S1x128 (m ((c : Thread nD τ).loc main_arg6)) shapeCasts_S128_S1x128 := by
  have h : V7 m ρ c main_v41 = shapeCast S1x128 (W6 m ρ c (Proc.devRef .tc main_arg6)) shapeCasts_S128_S1x128 := by
    show StableHlo.after hostOps1 (W6 m ρ c) (Proc.devRef .tc main_v41) = _
    simp only [hostOps1]
    after_results_simp
    rfl
  rw [h, at6_arg6 m ρ c]

/-- Region 2's aggregate: message passing over what region 1 left. -/
theorem in9_v52 (c : Dev nD) :
    V9 m ρ c main_v52 = edgeSum ((dat1 (V7 m ρ) c).arrAt 4 cfg1.N) (m ((c : Thread nD τ).loc main_arg1)) (m ((c : Thread nD τ).loc main_arg2)) := by
  have h : V9 m ρ c main_v52 = edgeSum (W8 m ρ c (Proc.devRef .tc main_v42)) (W8 m ρ c (Proc.devRef .tc main_arg1)) (W8 m ρ c (Proc.devRef .tc main_arg2)) := by
    show StableHlo.after hostOps2 (W8 m ρ c) (Proc.devRef .tc main_v52) = _
    simp only [hostOps2]
    after_results_simp
    rfl
  rw [h, at8_arg1 m ρ c, at8_arg2 m ρ c, W8_arr m ρ c 4]

/-- The normalisers' array at region 2's entry. -/
theorem in9_v15 (c : Dev nD) : V9 m ρ c main_v15 = normPair (m ((c : Thread nD τ).loc main_arg1)) (m ((c : Thread nD τ).loc main_arg2)) :=
  calc V9 m ρ c main_v15
    _ = W8 m ρ c (Proc.devRef .tc main_v15) := by stretch_keeps
    _ = W5 m ρ c (Proc.devRef .tc main_v15) := at8_v15 m ρ c
    _ = normPair (m ((c : Thread nD τ).loc main_arg1)) (m ((c : Thread nD τ).loc main_arg2)) := in5_v15 m ρ c

/-- Region 2's weights. -/
theorem in9_arg7 (c : Dev nD) : V9 m ρ c main_arg7 = m ((c : Thread nD τ).loc main_arg7) :=
  calc V9 m ρ c main_arg7
    _ = W8 m ρ c (Proc.devRef .tc main_arg7) := by stretch_keeps
    _ = m ((c : Thread nD τ).loc main_arg7) := at8_arg7 m ρ c

/-- Region 2's bias, as a row. -/
theorem in9_v53 (c : Dev nD) :
    V9 m ρ c main_v53 = shapeCast S1x128 (m ((c : Thread nD τ).loc main_arg8)) shapeCasts_S128_S1x128 := by
  have h : V9 m ρ c main_v53 = shapeCast S1x128 (W8 m ρ c (Proc.devRef .tc main_arg8)) shapeCasts_S128_S1x128 := by
    show StableHlo.after hostOps2 (W8 m ρ c) (Proc.devRef .tc main_v53) = _
    simp only [hostOps2]
    after_results_simp
    rfl
  rw [h, at8_arg8 m ρ c]

/-- Region 3's aggregate: message passing over what region 2 left. -/
theorem in11_v64 (c : Dev nD) :
    V11 m ρ c main_v64 = edgeSum ((dat2 (V9 m ρ) c).arrAt 4 cfg2.N) (m ((c : Thread nD τ).loc main_arg1)) (m ((c : Thread nD τ).loc main_arg2)) := by
  have h : V11 m ρ c main_v64 = edgeSum (W10 m ρ c (Proc.devRef .tc main_v54)) (W10 m ρ c (Proc.devRef .tc main_arg1)) (W10 m ρ c (Proc.devRef .tc main_arg2)) := by
    show StableHlo.after hostOps3 (W10 m ρ c) (Proc.devRef .tc main_v64) = _
    simp only [hostOps3]
    after_results_simp
    rfl
  rw [h, at10_arg1 m ρ c, at10_arg2 m ρ c, W10_arr m ρ c 4]

/-- The normalisers' array at region 3's entry. -/
theorem in11_v15 (c : Dev nD) : V11 m ρ c main_v15 = normPair (m ((c : Thread nD τ).loc main_arg1)) (m ((c : Thread nD τ).loc main_arg2)) :=
  calc V11 m ρ c main_v15
    _ = W10 m ρ c (Proc.devRef .tc main_v15) := by stretch_keeps
    _ = W5 m ρ c (Proc.devRef .tc main_v15) := at10_v15 m ρ c
    _ = normPair (m ((c : Thread nD τ).loc main_arg1)) (m ((c : Thread nD τ).loc main_arg2)) := in5_v15 m ρ c

/-- Region 3's weights. -/
theorem in11_arg9 (c : Dev nD) : V11 m ρ c main_arg9 = m ((c : Thread nD τ).loc main_arg9) :=
  calc V11 m ρ c main_arg9
    _ = W10 m ρ c (Proc.devRef .tc main_arg9) := by stretch_keeps
    _ = m ((c : Thread nD τ).loc main_arg9) := at10_arg9 m ρ c

/-- Region 3's bias, as a row. -/
theorem in11_v65 (c : Dev nD) :
    V11 m ρ c main_v65 = shapeCast S1x64 (m ((c : Thread nD τ).loc main_arg10)) shapeCasts_S64_S1x64 := by
  have h : V11 m ρ c main_v65 = shapeCast S1x64 (W10 m ρ c (Proc.devRef .tc main_arg10)) shapeCasts_S64_S1x64 := by
    show StableHlo.after hostOps3 (W10 m ρ c) (Proc.devRef .tc main_v65) = _
    simp only [hostOps3]
    after_results_simp
    rfl
  rw [h, at10_arg10 m ρ c]

/-- The readout region reads what region 3 left. -/
theorem in13_v66 (c : Dev nD) : V13 m ρ c main_v66 = (dat3 (V11 m ρ) c).arrAt 4 cfg3.N :=
  calc V13 m ρ c main_v66
    _ = W12 m ρ c (Proc.devRef .tc main_v66) := by stretch_keeps
    _ = (dat3 (V11 m ρ) c).arrAt 4 cfg3.N := W12_arr m ρ c 4

/-- The projection weights at the readout region's entry. -/
theorem in13_arg11 (c : Dev nD) : V13 m ρ c main_arg11 = m ((c : Thread nD τ).loc main_arg11) :=
  calc V13 m ρ c main_arg11
    _ = W12 m ρ c (Proc.devRef .tc main_arg11) := by stretch_keeps
    _ = m ((c : Thread nD τ).loc main_arg11) := at12_arg11 m ρ c

/-- The projection bias, as a one-by-one array. -/
theorem in13_v67 (c : Dev nD) :
    V13 m ρ c main_v67 = shapeCast S1x1 (m ((c : Thread nD τ).loc main_arg12)) shapeCasts_S1_S1x1 := by
  have h : V13 m ρ c main_v67 = shapeCast S1x1 (W12 m ρ c (Proc.devRef .tc main_arg12)) shapeCasts_S1_S1x1 := by
    show StableHlo.after hostOps4 (W12 m ρ c) (Proc.devRef .tc main_v67) = _
    simp only [hostOps4]
    after_results_simp
    rfl
  rw [h, at12_arg12 m ρ c]

/-! ## The two results -/

/-- The per-node result is the readout region's column output. -/
theorem out_v68_0 (c : Dev nD) :
    W15 m ρ c (Proc.devRef .tc main_v68_0) = (dat4 (V13 m ρ) c).arrAt 3 cfg4.N :=
  calc W15 m ρ c (Proc.devRef .tc main_v68_0)
    _ = W14 m ρ c (Proc.devRef .tc main_v68_0) := by stretch_keeps
    _ = (dat4 (V13 m ρ) c).arrAt 3 cfg4.N := W14_arr m ρ c 3

/-- The pooled result: the readout region's row output through the value head. -/
theorem out_v71 (c : Dev nD) :
    W15 m ρ c (Proc.devRef .tc main_v71)
      = valueHead ((dat4 (V13 m ρ) c).arrAt 4 cfg4.N) (m ((c : Thread nD τ).loc main_arg13)) (m ((c : Thread nD τ).loc main_arg14)) := by
  have h : W15 m ρ c (Proc.devRef .tc main_v71)
      = valueHead (W14 m ρ c (Proc.devRef .tc main_v68_1)) (W14 m ρ c (Proc.devRef .tc main_arg13)) (W14 m ρ c (Proc.devRef .tc main_arg14)) := by
    show StableHlo.after hostOps5 (W14 m ρ c) (Proc.devRef .tc main_v71) = _
    simp only [hostOps5]
    after_results_simp
    rfl
  rw [h, at14_arg13 m ρ c, at14_arg14 m ρ c, W14_arr m ρ c 4]

end Cert.KernelIdeal.Chain

end
-- ==== Proof.Spec.lean ====
/-
  The mathematics both programs compute, stated once, index by index, on the extended reals.

  A graph-convolution layer takes the aggregated messages `agg` (one row per node), the two degree
  normalisers kept side by side in `norms` (column 0: the source-side factor, column 1: the
  destination-side factor), a weight matrix and a bias row. Row `r` of the aggregate is scaled by the
  destination factor of node `r`, multiplied by the weights, shifted by the bias; the three hidden layers
  then clamp at zero and scale by the source factor of node `r` (so that the next gather reads rows that
  are already normalised), the last layer does neither. The readout is, per node, the product of the
  last layer's row with a single column plus a scalar bias, and, per feature, the sum of that feature
  over all nodes.
-/
import Idealize.ShloMosaic.PureOps.Ideal
import Idealize.ShloMosaic.Lib.ValueIdx

noncomputable section

open scoped BigOperators

namespace Cert.GraphConv

open Idealize.ShloMosaic Idealize.ShloMosaic.ValueIdx

/-- A hidden layer at node `r`, feature `q`:
    `max (∑ₖ (agg r k · norms r 1) · W k q + b q) 0 · norms r 0`. -/
def layerActAt (agg : FVec Ideal ⟨2, ![50000, 128]⟩ .f32) (norms : FVec Ideal ⟨2, ![50000, 2]⟩ .f32)
    (W : FVec Ideal ⟨2, ![128, 128]⟩ .f32) (b : FVec Ideal ⟨2, ![1, 128]⟩ .f32) (r : Fin 50000) (q : Fin 128) : EReal :=
  max ((∑ k : Fin 128, (agg (ix2 r k) * norms (ix2 r (1 : Fin 2))) * W (ix2 k q)) + b (ix2 (0 : Fin 1) q))
      (Ideal.ofBits .f32 0x00000000#32)
    * norms (ix2 r (0 : Fin 2))

/-- The hidden layer as a whole array. -/
def layerAct (agg : FVec Ideal ⟨2, ![50000, 128]⟩ .f32) (norms : FVec Ideal ⟨2, ![50000, 2]⟩ .f32)
    (W : FVec Ideal ⟨2, ![128, 128]⟩ .f32) (b : FVec Ideal ⟨2, ![1, 128]⟩ .f32) : FVec Ideal ⟨2, ![50000, 128]⟩ .f32 :=
  fun i => layerActAt agg norms W b (i 0) (i 1)

/-- The last layer at node `r`, class `q`: `∑ₖ (agg r k · norms r 1) · W k q + b q`. -/
def layerLinAt (agg : FVec Ideal ⟨2, ![50000, 128]⟩ .f32) (norms : FVec Ideal ⟨2, ![50000, 2]⟩ .f32)
    (W : FVec Ideal ⟨2, ![128, 64]⟩ .f32) (b : FVec Ideal ⟨2, ![1, 64]⟩ .f32) (r : Fin 50000) (q : Fin 64) : EReal :=
  (∑ k : Fin 128, (agg (ix2 r k) * norms (ix2 r (1 : Fin 2))) * W (ix2 k q)) + b (ix2 (0 : Fin 1) q)

/-- The last layer as a whole array. -/
def layerLin (agg : FVec Ideal ⟨2, ![50000, 128]⟩ .f32) (norms : FVec Ideal ⟨2, ![50000, 2]⟩ .f32)
    (W : FVec Ideal ⟨2, ![128, 64]⟩ .f32) (b : FVec Ideal ⟨2, ![1, 64]⟩ .f32) : FVec Ideal ⟨2, ![50000, 64]⟩ .f32 :=
  fun i => layerLinAt agg norms W b (i 0) (i 1)

/-- The per-node projection at node `r`: `∑ₖ h r k · Wp k 0 + bp`. -/
def projAt (h : FVec Ideal ⟨2, ![50000, 64]⟩ .f32) (Wp : FVec Ideal ⟨2, ![64, 1]⟩ .f32) (bp : FVec Ideal ⟨2, ![1, 1]⟩ .f32)
    (r : Fin 50000) : EReal :=
  (∑ k : Fin 64, h (ix2 r k) * Wp (ix2 k (0 : Fin 1))) + bp (ix2 (0 : Fin 1) (0 : Fin 1))

/-- The per-node projection as a column. -/
def proj (h : FVec Ideal ⟨2, ![50000, 64]⟩ .f32) (Wp : FVec Ideal ⟨2, ![64, 1]⟩ .f32) (bp : FVec Ideal ⟨2, ![1, 1]⟩ .f32) :
    FVec Ideal ⟨2, ![50000, 1]⟩ .f32 :=
  fun i => projAt h Wp bp (i 0)

/-- Feature `q` summed over all nodes. -/
def nodeSumAt (h : FVec Ideal ⟨2, ![50000, 64]⟩ .f32) (q : Fin 64) : EReal := ∑ r : Fin 50000, h (ix2 r q)

/-- The node sum as a row. -/
def nodeSum (h : FVec Ideal ⟨2, ![50000, 64]⟩ .f32) : FVec Ideal ⟨2, ![1, 64]⟩ .f32 := fun i => nodeSumAt h (i 1)

end Cert.GraphConv

end
-- ==== Proof.Net.lean ====
/-
  The whole network as one function of the fifteen arguments, and the two small arrays the kernel regions read
  (the normalisers side by side, a bias as a row) at an index.
-/
import proofs.«134515_j11364483465281_1_alg».proof.Proof.KernelChain
import proofs.«134515_j11364483465281_1_alg».proof.Proof.Spec
import Idealize.ShloMosaic.Lib.Pipeline.Value
import Idealize.ShloMosaic.Lib.ValueIdx

noncomputable section

namespace Cert.KernelIdeal.Net

open Cert.KernelIdeal Cert.KernelIdeal.Gen Cert.KernelIdeal.Chain
open Idealize.ShloMosaic Idealize.ShloMosaic.TcCoe Idealize.ShloMosaic.ValueIdx

/-! ## The normalisers' array and the bias rows, read at an index -/

/-- A per-node vector as a column reads the node's entry. -/
theorem asColumn_apply (v : FVec Ideal S50000 .f32) (r : Fin 50000) :
    asColumn (F := Ideal) v (ix2 r (0 : Fin 1)) = v (ix1 r) := by
  unfold asColumn
  exact broadcastInDim_apply (![0] : Fin 1 → Fin 2) bcast_S50000_S50000x1_0 v (ix2 r (0 : Fin 1)) (ix1 r) (fun ax => by
    match ax with
    | ⟨0, _⟩ => show r.val = if (50000 : Nat) = 1 then 0 else r.val; rw [if_neg (by decide)])

/-- Column 0 of the normalisers' array is the source-side normaliser. -/
theorem normPair_src (src dst : (⟨S800000, .i32⟩ : BufTy).Contents (Elt Ideal)) (r : Fin 50000) :
    normPair (F := Ideal) src dst (ix2 r (0 : Fin 2)) = degNorm (F := Ideal) src (ix1 r) := by
  unfold normPair
  rw [concatenate_pair_apply_left (1 : Fin 2) (asColumn (F := Ideal) (degNorm src)) (asColumn (F := Ideal) (degNorm dst))
    concatenates_S50000x1_S50000x1_S50000x2_d1 (ix2 r (0 : Fin 2)) rfl (ix2 r (0 : Fin 1)) (fun b => by
      match b with
      | ⟨0, _⟩ => rfl
      | ⟨1, _⟩ => rfl)]
  exact asColumn_apply _ r

/-- Column 1 of the normalisers' array is the destination-side normaliser. -/
theorem normPair_dst (src dst : (⟨S800000, .i32⟩ : BufTy).Contents (Elt Ideal)) (r : Fin 50000) :
    normPair (F := Ideal) src dst (ix2 r (1 : Fin 2)) = degNorm (F := Ideal) dst (ix1 r) := by
  unfold normPair
  rw [concatenate_pair_apply_right (1 : Fin 2) (asColumn (F := Ideal) (degNorm src)) (asColumn (F := Ideal) (degNorm dst))
    concatenates_S50000x1_S50000x1_S50000x2_d1 (ix2 r (1 : Fin 2)) rfl rfl (ix2 r (0 : Fin 1)) (fun b hb => by
      match b with
      | ⟨0, _⟩ => rfl
      | ⟨1, _⟩ => exact absurd rfl hb) rfl]
  exact asColumn_apply _ r

/-- A bias of 128 entries as a row reads the feature's entry. -/
theorem biasRow128_apply (b : FVec Ideal S128 .f32) (q : Fin 128) :
    shapeCast S1x128 b shapeCasts_S128_S1x128 (ix2 (0 : Fin 1) q) = b (ix1 q) :=
  shapeCast_apply b shapeCasts_S128_S1x128 (ix2 (0 : Fin 1) q) (ix1 q) (by
    rw [Shape.rowMajor_val_one, Shape.rowMajor_val_two]
    show q.val = 0 * 128 + q.val
    omega)

/-- A bias of 64 entries as a row reads the class's entry. -/
theorem biasRow64_apply (b : FVec Ideal S64 .f32) (q : Fin 64) :
    shapeCast S1x64 b shapeCasts_S64_S1x64 (ix2 (0 : Fin 1) q) = b (ix1 q) :=
  shapeCast_apply b shapeCasts_S64_S1x64 (ix2 (0 : Fin 1) q) (ix1 q) (by
    rw [Shape.rowMajor_val_one, Shape.rowMajor_val_two]
    show q.val = 0 * 64 + q.val
    omega)

/-- The projection bias as a one-by-one array reads its entry. -/
theorem biasScalar_apply (b : FVec Ideal S1 .f32) :
    shapeCast S1x1 b shapeCasts_S1_S1x1 (ix2 (0 : Fin 1) (0 : Fin 1)) = b (ix1 (0 : Fin 1)) :=
  shapeCast_apply b shapeCasts_S1_S1x1 (ix2 (0 : Fin 1) (0 : Fin 1)) (ix1 (0 : Fin 1)) (by
    rw [Shape.rowMajor_val_one, Shape.rowMajor_val_two]
    rfl)

/-! ## The network -/

section Network

variable (x : FVec Ideal S50000x128 .f32) (src dst : (⟨S800000, .i32⟩ : BufTy).Contents (Elt Ideal))
  (W0 : FVec Ideal S128x128 .f32) (b0 : FVec Ideal S128 .f32) (W1 : FVec Ideal S128x128 .f32) (b1 : FVec Ideal S128 .f32)
  (W2 : FVec Ideal S128x128 .f32) (b2 : FVec Ideal S128 .f32) (W3 : FVec Ideal S128x64 .f32) (b3 : FVec Ideal S64 .f32)
  (Wp : FVec Ideal S64x1 .f32) (bp : FVec Ideal S1 .f32) (Wv : FVec Ideal S64x1 .f32) (bv : FVec Ideal S1 .f32)

/-- The first hidden layer: message passing over the scaled features, then the dense layer. -/
def hidden0 : FVec Ideal S50000x128 .f32 :=
  Cert.GraphConv.layerAct (edgeSum (F := Ideal) (scaledFeatures (F := Ideal) x src) src dst) (normPair (F := Ideal) src dst) W0
    (shapeCast S1x128 b0 shapeCasts_S128_S1x128)

/-- The second hidden layer. -/
def hidden1 : FVec Ideal S50000x128 .f32 :=
  Cert.GraphConv.layerAct (edgeSum (F := Ideal) (hidden0 x src dst W0 b0) src dst) (normPair (F := Ideal) src dst) W1
    (shapeCast S1x128 b1 shapeCasts_S128_S1x128)

/-- The third hidden layer. -/
def hidden2 : FVec Ideal S50000x128 .f32 :=
  Cert.GraphConv.layerAct (edgeSum (F := Ideal) (hidden1 x src dst W0 b0 W1 b1) src dst) (normPair (F := Ideal) src dst) W2
    (shapeCast S1x128 b2 shapeCasts_S128_S1x128)

/-- The last layer: no clamp, no rescale. -/
def logits : FVec Ideal S50000x64 .f32 :=
  Cert.GraphConv.layerLin (edgeSum (F := Ideal) (hidden2 x src dst W0 b0 W1 b1 W2 b2) src dst) (normPair (F := Ideal) src dst) W3
    (shapeCast S1x64 b3 shapeCasts_S64_S1x64)

/-- The per-node result. -/
def perNode : FVec Ideal S50000x1 .f32 :=
  Cert.GraphConv.proj (logits x src dst W0 b0 W1 b1 W2 b2 W3 b3) Wp (shapeCast S1x1 bp shapeCasts_S1_S1x1)

/-- The pooled result. -/
def pooled : FVec Ideal S1x1 .f32 :=
  valueHead (F := Ideal) (Cert.GraphConv.nodeSum (logits x src dst W0 b0 W1 b1 W2 b2 W3 b3)) Wv bv

end Network

end Cert.KernelIdeal.Net

end
-- ==== Proof.KernelRun.lean ====
/-
  The idealized program's run with its two results named.

  The program is fifteen segments: stretches of host operations and five kernel regions. The buffer
  contents at each segment boundary are a fold from the launch memory — a stretch applies its operations in
  order, a region replaces its arrays by what its write-backs leave. After the last segment every unscoped
  buffer holds the fold's final value; read at the two result buffers this names the results, and read at an
  argument's buffer it walks back to the launch memory.
-/
import proofs.«134515_j11364483465281_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the per-node result and the
    pooled result at the final fold's contents of their buffers, and the arguments as launched. -/
theorem run_results : θ_run defs (onTc (τ := τ) (main (F := F))) ⟨m, fun _ => 0, ρ⟩ (fun r => ∀ c : Dev nD,
      r.2.mem ((c.tc : Thread nD τ).loc main_v68_0) = W15 m ρ c (Proc.devRef .tc main_v68_0)
      ∧ r.2.mem ((c.tc : Thread nD τ).loc main_v71) = W15 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v68_0 (by decide)),
       h c _ (mem_uc main_v71 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c)⟩)

end Cert.KernelIdeal.RunValue

end
-- ==== Proof.DenseBlocks.lean ====
/-
  The four dense layers of the graph convolution, region by region.

  Each of the first four regions multiplies ten blocks of 5000 rows: a block of the aggregate is scaled, row by row, by
  the destination-side normaliser (column 1 of the normalisers), multiplied by the whole weight matrix and shifted by the
  bias row; the three hidden layers then clamp at zero and scale by the source-side normaliser (column 0), the last layer
  does neither and has 64 columns. Here the block a grid point writes back is read index by index (the product is the
  sum over the 128 contracted features), the blocks of the windows are read off the arrays the region finds when it is
  entered (row `p` of block `t` is row `5000 t + p` of the array; the weights and the bias row are whole at every
  point), and, since row `r` lies in the block of point `r / 5000`, the ten blocks cover the output: the output array
  after the region is the layer of the specification, applied to the region-entry arrays.
-/
import proofs.«134515_j11364483465281_1_alg».proof.Proof.Gen.KernelIdeal.Frame
import proofs.«134515_j11364483465281_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.DenseValue

open Cert.KernelIdeal Cert.KernelIdeal.Gen

/-- The contraction record of the hidden layers' product (rows × 128 times 128 × 128). -/
abbrev DH := dot_S5000x128_S128x128_S5000x128_1_0_0_1_n_n

theorem DH_lhs (p : Fin 5000) (q k : Fin 128) :
    DH.lhsIdx (ix2 p q) ((contrEquiv1 DH 128 rfl rfl).symm k) = ix2 p k := by
  have hk := contrEquiv1_symm_val DH 128 rfl rfl k
  funext a; apply Fin.ext
  match a with
  | ⟨0, _⟩ =>
    show (DH.lhsIdx (ix2 p q) _ 0).val = p.val
    unfold DotDims.lhsIdx
    rw [dif_neg (show ¬(0 : Fin S5000x128.rank) ∈ DH.lhsBatch by decide), dif_pos (show (0 : Fin S5000x128.rank) ∈ DH.lhsNonContracting by decide)]
    rfl
  | ⟨1, _⟩ => exact (DH.lhsIdx_val_of_single rfl (ix2 p q) _).trans hk

theorem DH_rhs (p : Fin 5000) (q k : Fin 128) :
    DH.rhsIdx (ix2 p q) ((contrEquiv1 DH 128 rfl rfl).symm k) = ix2 k q := by
  have hk := contrEquiv1_symm_val DH 128 rfl rfl k
  funext a; apply Fin.ext
  match a with
  | ⟨0, _⟩ => exact (DH.rhsIdx_val_of_single rfl (ix2 p q) _).trans hk
  | ⟨1, _⟩ =>
    show (DH.rhsIdx (ix2 p q) _ 1).val = q.val
    unfold DotDims.rhsIdx
    rw [dif_neg (show ¬(1 : Fin S128x128.rank) ∈ DH.rhsBatch by decide), dif_pos (show (1 : Fin S128x128.rank) ∈ DH.rhsNonContracting by decide)]
    rfl

/-- Column `1` of the normalisers, spread over a row. -/
theorem normDst_apply (x1 : Vec Ideal S5000x2 .f32) (p : Fin 5000) (k : Fin 128) :
    broadcastTo S5000x128 (extractStridedSlice S5000x1 ![0, 1] x1 slices_S5000x2_o0_1_S5000x1) broadcasts_S5000x1_S5000x128 (ix2 p k)
      = x1 (ix2 p (1 : Fin 2)) := by
  refine (broadcastTo_apply _ _ (ix2 p k) (ix2 p (0 : Fin 1)) ?_).trans ?_
  · intro a
    match a with
    | ⟨0, _⟩ => rfl
    | ⟨1, _⟩ => rfl
  · refine extractStridedSlice_apply _ _ _ (ix2 p (0 : Fin 1)) (ix2 p (1 : Fin 2)) ?_
    intro a
    match a with
    | ⟨0, _⟩ => show p.val = 0 + p.val; omega
    | ⟨1, _⟩ => rfl

/-- Column `0` of the normalisers, spread over a row. -/
theorem normSrc_apply (x1 : Vec Ideal S5000x2 .f32) (p : Fin 5000) (k : Fin 128) :
    broadcastTo S5000x128 (extractStridedSlice S5000x1 ![0, 0] x1 slices_S5000x2_o0_0_S5000x1) broadcasts_S5000x1_S5000x128 (ix2 p k)
      = x1 (ix2 p (0 : Fin 2)) := by
  refine (broadcastTo_apply _ _ (ix2 p k) (ix2 p (0 : Fin 1)) ?_).trans ?_
  · intro a
    match a with
    | ⟨0, _⟩ => rfl
    | ⟨1, _⟩ => rfl
  · refine extractStridedSlice_apply _ _ _ (ix2 p (0 : Fin 1)) (ix2 p (0 : Fin 2)) ?_
    intro a
    match a with
    | ⟨0, _⟩ => show p.val = 0 + p.val; omega
    | ⟨1, _⟩ => rfl

/-- The bias row, spread over the rows. -/
theorem biasRow_apply (x3 : Vec Ideal S1x128 .f32) (p : Fin 5000) (q : Fin 128) :
    broadcastTo S5000x128 x3 broadcasts_S1x128_S5000x128 (ix2 p q) = x3 (ix2 (0 : Fin 1) q) := by
  refine broadcastTo_apply _ _ (ix2 p q) (ix2 (0 : Fin 1) q) ?_
  intro a
  match a with
  | ⟨0, _⟩ => rfl
  | ⟨1, _⟩ => rfl

/-- The product inside a hidden layer at row `p`, feature `q`: the rows are scaled by the destination factor first. -/
theorem hidden_matmul_apply (x1 : Vec Ideal S5000x2 .f32) (x0 : Vec Ideal S5000x128 .f32) (x2 : Vec Ideal S128x128 .f32)
    (p : Fin 5000) (q : Fin 128) :
    matmul DH none
        (truncf .bf16 (mulf x0 (broadcastTo S5000x128 (extractStridedSlice S5000x1 ![0, 1] x1 slices_S5000x2_o0_1_S5000x1)
          broadcasts_S5000x1_S5000x128)) bitsLt_bf16_f32)
        (truncf .bf16 x2 bitsLt_bf16_f32) (constant (F := Ideal) S5000x128 .f32 0x00000000#32) (ix2 p q)
      = ∑ k : Fin 128, (x0 (ix2 p k) * x1 (ix2 p (1 : Fin 2))) * x2 (ix2 k q) := by
  refine (Ideal.matmul_constant_zero_apply DH none _ _ (ix2 p q)).trans ?_
  rw [← Equiv.sum_comp (contrEquiv1 DH 128 rfl rfl).symm]
  refine Finset.sum_congr rfl fun k _ => ?_
  rw [DH_lhs, DH_rhs, truncf_apply, truncf_apply, mulf_apply, normDst_apply]

/-- A hidden layer's block at row `p`, feature `q`. -/
theorem hidden_pay_apply (x1 : Vec Ideal S5000x2 .f32) (x0 : Vec Ideal S5000x128 .f32) (x2 : Vec Ideal S128x128 .f32)
    (x3 : Vec Ideal S1x128 .f32) (p : Fin 5000) (q : Fin 128) :
    k0_pay1 x1 x0 x2 x3 (ix2 p q)
      = max ((∑ k : Fin 128, (x0 (ix2 p k) * x1 (ix2 p (1 : Fin 2))) * x2 (ix2 k q)) + x3 (ix2 (0 : Fin 1) q))
          (Ideal.ofBits .f32 0x00000000#32) * x1 (ix2 p (0 : Fin 2)) := by
  unfold k0_pay1
  simp only [shapeCast_self]
  rw [mulf_apply, maximumf_apply, addf_apply, broadcast_apply, normSrc_apply, biasRow_apply, hidden_matmul_apply]
  rfl

theorem k1_pay1_eq : @k1_pay1 Ideal _ = @k0_pay1 Ideal _ := rfl
theorem k2_pay1_eq : @k2_pay1 Ideal _ = @k0_pay1 Ideal _ := rfl

/-! ## The last layer's block: no clamp, no rescale, 64 columns -/

/-- The contraction record of the last layer's product (rows × 128 times 128 × 64). -/
abbrev DL := dot_S5000x128_S128x64_S5000x64_1_0_0_1_n_n

theorem DL_lhs (p : Fin 5000) (q : Fin 64) (k : Fin 128) :
    DL.lhsIdx (ix2 p q) ((contrEquiv1 DL 128 rfl rfl).symm k) = ix2 p k := by
  have hk := contrEquiv1_symm_val DL 128 rfl rfl k
  funext a; apply Fin.ext
  match a with
  | ⟨0, _⟩ =>
    show (DL.lhsIdx (ix2 p q) _ 0).val = p.val
    unfold DotDims.lhsIdx
    rw [dif_neg (show ¬(0 : Fin S5000x128.rank) ∈ DL.lhsBatch by decide), dif_pos (show (0 : Fin S5000x128.rank) ∈ DL.lhsNonContracting by decide)]
    rfl
  | ⟨1, _⟩ => exact (DL.lhsIdx_val_of_single rfl (ix2 p q) _).trans hk

theorem DL_rhs (p : Fin 5000) (q : Fin 64) (k : Fin 128) :
    DL.rhsIdx (ix2 p q) ((contrEquiv1 DL 128 rfl rfl).symm k) = ix2 k q := by
  have hk := contrEquiv1_symm_val DL 128 rfl rfl k
  funext a; apply Fin.ext
  match a with
  | ⟨0, _⟩ => exact (DL.rhsIdx_val_of_single rfl (ix2 p q) _).trans hk
  | ⟨1, _⟩ =>
    show (DL.rhsIdx (ix2 p q) _ 1).val = q.val
    unfold DotDims.rhsIdx
    rw [dif_neg (show ¬(1 : Fin S128x64.rank) ∈ DL.rhsBatch by decide), dif_pos (show (1 : Fin S128x64.rank) ∈ DL.rhsNonContracting by decide)]
    rfl

/-- The last layer's bias row, spread over the rows. -/
theorem biasRowL_apply (x3 : Vec Ideal S1x64 .f32) (p : Fin 5000) (q : Fin 64) :
    broadcastTo S5000x64 x3 broadcasts_S1x64_S5000x64 (ix2 p q) = x3 (ix2 (0 : Fin 1) q) := by
  refine broadcastTo_apply _ _ (ix2 p q) (ix2 (0 : Fin 1) q) ?_
  intro a
  match a with
  | ⟨0, _⟩ => rfl
  | ⟨1, _⟩ => rfl

/-- The product inside the last layer at row `p`, class `q`. -/
theorem last_matmul_apply (x1 : Vec Ideal S5000x2 .f32) (x0 : Vec Ideal S5000x128 .f32) (x2 : Vec Ideal S128x64 .f32)
    (p : Fin 5000) (q : Fin 64) :
    matmul DL none
        (truncf .bf16 (mulf x0 (broadcastTo S5000x128 (extractStridedSlice S5000x1 ![0, 1] x1 slices_S5000x2_o0_1_S5000x1)
          broadcasts_S5000x1_S5000x128)) bitsLt_bf16_f32)
        (truncf .bf16 x2 bitsLt_bf16_f32) (constant (F := Ideal) S5000x64 .f32 0x00000000#32) (ix2 p q)
      = ∑ k : Fin 128, (x0 (ix2 p k) * x1 (ix2 p (1 : Fin 2))) * x2 (ix2 k q) := by
  refine (Ideal.matmul_constant_zero_apply DL none _ _ (ix2 p q)).trans ?_
  rw [← Equiv.sum_comp (contrEquiv1 DL 128 rfl rfl).symm]
  refine Finset.sum_congr rfl fun k _ => ?_
  rw [DL_lhs, DL_rhs, truncf_apply, truncf_apply, mulf_apply, normDst_apply]

/-- The last layer's block at row `p`, class `q`. -/
theorem last_pay_apply (x1 : Vec Ideal S5000x2 .f32) (x0 : Vec Ideal S5000x128 .f32) (x2 : Vec Ideal S128x64 .f32)
    (x3 : Vec Ideal S1x64 .f32) (p : Fin 5000) (q : Fin 64) :
    k3_pay1 x1 x0 x2 x3 (ix2 p q)
      = (∑ k : Fin 128, (x0 (ix2 p k) * x1 (ix2 p (1 : Fin 2))) * x2 (ix2 k q)) + x3 (ix2 (0 : Fin 1) q) := by
  unfold k3_pay1
  simp only [shapeCast_self]
  rw [addf_apply, biasRowL_apply, last_matmul_apply]

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The index maps of this layer's windows, decided over the grid: the row windows sit at block `t`, the
    weights and the bias row at block zero. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The aggregate's block at point `t` is rows `5000 t …` of the aggregate. -/
theorem agg_blk0 (c : Dev nD) (t : Fin cfg0.N) (p : Fin 5000) (k : Fin 128) (r : Fin 50000) (hr : r.val = t.val * 5000 + p.val) :
    (iblk0 V c 0 t : Vec Ideal S5000x128 .f32) (ix2 p k) = (V c main_v28 : S50000x128.Idx → EReal) (ix2 r k) := by
  obtain ⟨e0, e1, -⟩ := idx_facts0 t
  unfold iblk0
  rw [View.read_apply]
  show V c main_v28 _ = V c main_v28 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The normalisers' block at point `t` is rows `5000 t …` of the normalisers. -/
theorem norm_blk0 (c : Dev nD) (t : Fin cfg0.N) (p : Fin 5000) (e : Fin 2) (r : Fin 50000) (hr : r.val = t.val * 5000 + p.val) :
    (iblk0 V c 1 t : Vec Ideal S5000x2 .f32) (ix2 p e) = (V c main_v15 : S50000x2.Idx → EReal) (ix2 r e) := by
  obtain ⟨-, -, e0, e1, -⟩ := idx_facts0 t
  unfold iblk0
  rw [View.read_apply]
  show V c main_v15 _ = V c main_v15 _
  congr 1
  funext a
  apply Fin.ext
  match a with
  | ⟨0, _⟩ => show win0_1.index t 0 * 5000 + 1 * p.val = r.val; rw [e0, hr]; omega
  | ⟨1, _⟩ => show win0_1.index t 1 * 2 + 1 * e.val = e.val; rw [e1]; omega

/-- The weights' block at every point is the whole matrix. -/
theorem w_blk0 (c : Dev nD) (t : Fin cfg0.N) (k : Fin 128) (q : Fin 128) :
    (iblk0 V c 2 t : Vec Ideal S128x128 .f32) (ix2 k q) = (V c main_arg3 : S128x128.Idx → EReal) (ix2 k q) := by
  obtain ⟨-, -, -, -, e0, e1, -⟩ := idx_facts0 t
  unfold iblk0
  rw [View.read_apply]
  show V c main_arg3 _ = V c main_arg3 _
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

/-- The bias row's block at every point is the whole row. -/
theorem b_blk0 (c : Dev nD) (t : Fin cfg0.N) (q : Fin 128) :
    (iblk0 V c 3 t : Vec Ideal S1x128 .f32) (ix2 (0 : Fin 1) q) = (V c main_v29 : S1x128.Idx → EReal) (ix2 (0 : Fin 1) q) := by
  obtain ⟨-, -, -, -, -, -, e0, e1, -⟩ := idx_facts0 t
  unfold iblk0
  rw [View.read_apply]
  show V c main_v29 _ = V c main_v29 _
  congr 1
  funext a
  apply Fin.ext
  match a with
  | ⟨0, _⟩ => show win0_3.index t 0 * 1 + 1 * 0 = 0; rw [e0]
  | ⟨1, _⟩ => show win0_3.index t 1 * 128 + 1 * q.val = q.val; rw [e1]; omega

/-- The block computed at point `t`, at row `p` of the block and feature `q`, is the layer at row `r = 5000 t + p`. -/
theorem point_eq0 (c : Dev nD) (t : Fin cfg0.N) (p : Fin 5000) (q : Fin 128) (r : Fin 50000) (hr : r.val = t.val * 5000 + p.val) :
    k0_pay1 (F := Ideal) (iblk0 V c 1 t) (iblk0 V c 0 t) (iblk0 V c 2 t) (iblk0 V c 3 t) (ix2 p q)
      = Cert.GraphConv.layerActAt (V c main_v28) (V c main_v15) (V c main_arg3) (V c main_v29) r q := by
  refine (hidden_pay_apply (iblk0 V c 1 t) (iblk0 V c 0 t) (iblk0 V c 2 t) (iblk0 V c 3 t) p q).trans ?_
  unfold Cert.GraphConv.layerActAt
  rw [norm_blk0 V c t p 1 r hr, norm_blk0 V c t p 0 r hr, b_blk0 V c t q]
  simp only [agg_blk0 V c t p _ r hr, w_blk0 V c t _ q]

/-- What point `t` writes back is block `t` of the layer of the region-entry arrays. -/
theorem flushed_eq0 (c : Dev nD) (t : Fin cfg0.N) :
    (dat0 (F := Ideal) V c).flushed 4 t = ((cfg0.win 4).blk t).view.read (Elt Ideal)
      (Cert.GraphConv.layerAct (V c main_v28) (V c main_v15) (V c main_arg3) (V c main_v29)) := by
  show (cfg0.win 4).cut (grid0.coords t) ((dat0 V c).after 4 t) = _
  rw [after0_4]
  unfold out0_4
  rw [View.canon_unit_zero hz]
  simp only [View.ld_unit_zero (S := S5000x2) hz, View.ld_unit_zero (S := S5000x128) hz, View.ld_unit_zero (S := S128x128) hz, View.ld_unit_zero (S := S1x128) hz]
  funext j
  have ht : t.val < 10 := lt_of_lt_of_eq t.isLt N_0
  have hp : (j 0).val < 5000 := (j 0).isLt
  have hq : (j 1).val < 128 := (j 1).isLt
  obtain ⟨-, -, -, -, -, -, -, -, e0, e1⟩ := idx_facts0 t
  have hx : (win0 4).xinj (grid0.coords t) j = (ix2 (⟨(j 0).val, hp⟩ : Fin 5000) (⟨(j 1).val, hq⟩ : Fin 128) : S5000x128.Idx) :=
    funext fun a => by
      match a with
      | ⟨0, _⟩ => rfl
      | ⟨1, _⟩ => rfl
  have hemb : ((cfg0.win 4).blk t).view.emb j
      = (ix2 (⟨t.val * 5000 + (j 0).val, by omega⟩ : Fin 50000) (⟨(j 1).val, hq⟩ : Fin 128) : S50000x128.Idx) := by
    funext a; apply Fin.ext
    match a with
    | ⟨0, _⟩ => show win0_4.index t 0 * 5000 + 1 * (j 0).val = t.val * 5000 + (j 0).val; rw [e0]; omega
    | ⟨1, _⟩ => show win0_4.index t 1 * 128 + 1 * (j 1).val = (j 1).val; rw [e1]; omega
  refine (congrArg (k0_pay1 (F := Ideal) (iblk0 V c 1 t) (iblk0 V c 0 t) (iblk0 V c 2 t) (iblk0 V c 3 t)) hx).trans ?_
  rw [View.read_apply]
  refine Eq.trans ?_ (congrArg (Cert.GraphConv.layerAct (V c main_v28) (V c main_v15) (V c main_arg3) (V c main_v29)) hemb).symm
  exact point_eq0 V c t ⟨(j 0).val, hp⟩ ⟨(j 1).val, hq⟩ ⟨t.val * 5000 + (j 0).val, by omega⟩ rfl

/-- An index of the output is in point `t`'s block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v30).slice (win0_4.rect t)).set ↔ _
  rw [View.set_slice_whole, Rect.mem_set_unit]
  exact Iff.rfl

/-- Row `r` of the output is written by point `r / 5000`: the ten blocks of 5000 rows cover the array. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, htv⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, -, -, e0, e1⟩ := idx_facts0 t
  refine ⟨t, flush0_4 t, ?_⟩
  rw [mem_blk0]
  intro a
  match a with
  | ⟨0, _⟩ => show win0_4.index t 0 * 5000 ≤ (i 0).val ∧ (i 0).val < win0_4.index t 0 * 5000 + 5000; rw [e0, htv]; omega
  | ⟨1, _⟩ => show win0_4.index t 1 * 128 ≤ (i 1).val ∧ (i 1).val < win0_4.index t 1 * 128 + 128; rw [e1]; omega

/-- The output array after the region: the layer of the region-entry arrays. -/
theorem final0 (c : Dev nD) : (dat0 (F := Ideal) V c).arrAt 4 cfg0.N
    = Cert.GraphConv.layerAct (V c main_v28) (V c main_v15) (V c main_arg3) (V c main_v29) :=
  (dat0 (F := Ideal) V c).arrAt_eq_of_cover 4 _ (fun t _ => flushed_eq0 V c t) cover0

/-! ## Region 1 -/

/-- The index maps of this layer's windows, decided over the grid: the row windows sit at block `t`, the
    weights and the bias row at block zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point `t` is rows `5000 t …` of the aggregate. -/
theorem agg_blk1 (c : Dev nD) (t : Fin cfg1.N) (p : Fin 5000) (k : Fin 128) (r : Fin 50000) (hr : r.val = t.val * 5000 + p.val) :
    (iblk1 V c 0 t : Vec Ideal S5000x128 .f32) (ix2 p k) = (V c main_v40 : S50000x128.Idx → EReal) (ix2 r k) := by
  obtain ⟨e0, e1, -⟩ := idx_facts1 t
  unfold iblk1
  rw [View.read_apply]
  show V c main_v40 _ = V c main_v40 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- The normalisers' block at point `t` is rows `5000 t …` of the normalisers. -/
theorem norm_blk1 (c : Dev nD) (t : Fin cfg1.N) (p : Fin 5000) (e : Fin 2) (r : Fin 50000) (hr : r.val = t.val * 5000 + p.val) :
    (iblk1 V c 1 t : Vec Ideal S5000x2 .f32) (ix2 p e) = (V c main_v15 : S50000x2.Idx → EReal) (ix2 r e) := by
  obtain ⟨-, -, e0, e1, -⟩ := idx_facts1 t
  unfold iblk1
  rw [View.read_apply]
  show V c main_v15 _ = V c main_v15 _
  congr 1
  funext a
  apply Fin.ext
  match a with
  | ⟨0, _⟩ => show win1_1.index t 0 * 5000 + 1 * p.val = r.val; rw [e0, hr]; omega
  | ⟨1, _⟩ => show win1_1.index t 1 * 2 + 1 * e.val = e.val; rw [e1]; omega

/-- The weights' block at every point is the whole matrix. -/
theorem w_blk1 (c : Dev nD) (t : Fin cfg1.N) (k : Fin 128) (q : Fin 128) :
    (iblk1 V c 2 t : Vec Ideal S128x128 .f32) (ix2 k q) = (V c main_arg5 : S128x128.Idx → EReal) (ix2 k q) := by
  obtain ⟨-, -, -, -, e0, e1, -⟩ := idx_facts1 t
  unfold iblk1
  rw [View.read_apply]
  show V c main_arg5 _ = V c main_arg5 _
  congr 1
  funext a
  apply Fin.ext
  match a with
  | ⟨0, _⟩ => show win1_2.index t 0 * 128 + 1 * k.val = k.val; rw [e0]; omega
  | ⟨1, _⟩ => show win1_2.index t 1 * 128 + 1 * q.val = q.val; rw [e1]; omega

/-- The bias row's block at every point is the whole row. -/
theorem b_blk1 (c : Dev nD) (t : Fin cfg1.N) (q : Fin 128) :
    (iblk1 V c 3 t : Vec Ideal S1x128 .f32) (ix2 (0 : Fin 1) q) = (V c main_v41 : S1x128.Idx → EReal) (ix2 (0 : Fin 1) q) := by
  obtain ⟨-, -, -, -, -, -, e0, e1, -⟩ := idx_facts1 t
  unfold iblk1
  rw [View.read_apply]
  show V c main_v41 _ = V c main_v41 _
  congr 1
  funext a
  apply Fin.ext
  match a with
  | ⟨0, _⟩ => show win1_3.index t 0 * 1 + 1 * 0 = 0; rw [e0]
  | ⟨1, _⟩ => show win1_3.index t 1 * 128 + 1 * q.val = q.val; rw [e1]; omega

/-- The block computed at point `t`, at row `p` of the block and feature `q`, is the layer at row `r = 5000 t + p`. -/
theorem point_eq1 (c : Dev nD) (t : Fin cfg1.N) (p : Fin 5000) (q : Fin 128) (r : Fin 50000) (hr : r.val = t.val * 5000 + p.val) :
    k1_pay1 (F := Ideal) (iblk1 V c 1 t) (iblk1 V c 0 t) (iblk1 V c 2 t) (iblk1 V c 3 t) (ix2 p q)
      = Cert.GraphConv.layerActAt (V c main_v40) (V c main_v15) (V c main_arg5) (V c main_v41) r q := by
  rw [k1_pay1_eq]
  refine (hidden_pay_apply (iblk1 V c 1 t) (iblk1 V c 0 t) (iblk1 V c 2 t) (iblk1 V c 3 t) p q).trans ?_
  unfold Cert.GraphConv.layerActAt
  rw [norm_blk1 V c t p 1 r hr, norm_blk1 V c t p 0 r hr, b_blk1 V c t q]
  simp only [agg_blk1 V c t p _ r hr, w_blk1 V c t _ q]

/-- What point `t` writes back is block `t` of the layer of the region-entry arrays. -/
theorem flushed_eq1 (c : Dev nD) (t : Fin cfg1.N) :
    (dat1 (F := Ideal) V c).flushed 4 t = ((cfg1.win 4).blk t).view.read (Elt Ideal)
      (Cert.GraphConv.layerAct (V c main_v40) (V c main_v15) (V c main_arg5) (V c main_v41)) := by
  show (cfg1.win 4).cut (grid1.coords t) ((dat1 V c).after 4 t) = _
  rw [after1_4]
  unfold out1_4
  rw [View.canon_unit_zero hz]
  simp only [View.ld_unit_zero (S := S5000x2) hz, View.ld_unit_zero (S := S5000x128) hz, View.ld_unit_zero (S := S128x128) hz, View.ld_unit_zero (S := S1x128) hz]
  funext j
  have ht : t.val < 10 := lt_of_lt_of_eq t.isLt N_1
  have hp : (j 0).val < 5000 := (j 0).isLt
  have hq : (j 1).val < 128 := (j 1).isLt
  obtain ⟨-, -, -, -, -, -, -, -, e0, e1⟩ := idx_facts1 t
  have hx : (win1 4).xinj (grid1.coords t) j = (ix2 (⟨(j 0).val, hp⟩ : Fin 5000) (⟨(j 1).val, hq⟩ : Fin 128) : S5000x128.Idx) :=
    funext fun a => by
      match a with
      | ⟨0, _⟩ => rfl
      | ⟨1, _⟩ => rfl
  have hemb : ((cfg1.win 4).blk t).view.emb j
      = (ix2 (⟨t.val * 5000 + (j 0).val, by omega⟩ : Fin 50000) (⟨(j 1).val, hq⟩ : Fin 128) : S50000x128.Idx) := by
    funext a; apply Fin.ext
    match a with
    | ⟨0, _⟩ => show win1_4.index t 0 * 5000 + 1 * (j 0).val = t.val * 5000 + (j 0).val; rw [e0]; omega
    | ⟨1, _⟩ => show win1_4.index t 1 * 128 + 1 * (j 1).val = (j 1).val; rw [e1]; omega
  refine (congrArg (k1_pay1 (F := Ideal) (iblk1 V c 1 t) (iblk1 V c 0 t) (iblk1 V c 2 t) (iblk1 V c 3 t)) hx).trans ?_
  rw [View.read_apply]
  refine Eq.trans ?_ (congrArg (Cert.GraphConv.layerAct (V c main_v40) (V c main_v15) (V c main_arg5) (V c main_v41)) hemb).symm
  exact point_eq1 V c t ⟨(j 0).val, hp⟩ ⟨(j 1).val, hq⟩ ⟨t.val * 5000 + (j 0).val, by omega⟩ rfl

/-- An index of the output is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v42).slice (win1_4.rect t)).set ↔ _
  rw [View.set_slice_whole, Rect.mem_set_unit]
  exact Iff.rfl

/-- Row `r` of the output is written by point `r / 5000`: the ten blocks of 5000 rows cover the array. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, htv⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, e0, e1⟩ := idx_facts1 t
  refine ⟨t, flush1_4 t, ?_⟩
  rw [mem_blk1]
  intro a
  match a with
  | ⟨0, _⟩ => show win1_4.index t 0 * 5000 ≤ (i 0).val ∧ (i 0).val < win1_4.index t 0 * 5000 + 5000; rw [e0, htv]; omega
  | ⟨1, _⟩ => show win1_4.index t 1 * 128 ≤ (i 1).val ∧ (i 1).val < win1_4.index t 1 * 128 + 128; rw [e1]; omega

/-- The output array after the region: the layer of the region-entry arrays. -/
theorem final1 (c : Dev nD) : (dat1 (F := Ideal) V c).arrAt 4 cfg1.N
    = Cert.GraphConv.layerAct (V c main_v40) (V c main_v15) (V c main_arg5) (V c main_v41) :=
  (dat1 (F := Ideal) V c).arrAt_eq_of_cover 4 _ (fun t _ => flushed_eq1 V c t) cover1

/-! ## Region 2 -/

/-- The index maps of this layer's windows, decided over the grid: the row windows sit at block `t`, the
    weights and the bias row at block zero. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The aggregate's block at point `t` is rows `5000 t …` of the aggregate. -/
theorem agg_blk2 (c : Dev nD) (t : Fin cfg2.N) (p : Fin 5000) (k : Fin 128) (r : Fin 50000) (hr : r.val = t.val * 5000 + p.val) :
    (iblk2 V c 0 t : Vec Ideal S5000x128 .f32) (ix2 p k) = (V c main_v52 : S50000x128.Idx → EReal) (ix2 r k) := by
  obtain ⟨e0, e1, -⟩ := idx_facts2 t
  unfold iblk2
  rw [View.read_apply]
  show V c main_v52 _ = V c main_v52 _
  congr 1
  funext a
  apply Fin.ext
  match a with
  | ⟨0, _⟩ => show win2_0.index t 0 * 5000 + 1 * p.val = r.val; rw [e0, hr]; omega
  | ⟨1, _⟩ => show win2_0.index t 1 * 128 + 1 * k.val = k.val; rw [e1]; omega

/-- The normalisers' block at point `t` is rows `5000 t …` of the normalisers. -/
theorem norm_blk2 (c : Dev nD) (t : Fin cfg2.N) (p : Fin 5000) (e : Fin 2) (r : Fin 50000) (hr : r.val = t.val * 5000 + p.val) :
    (iblk2 V c 1 t : Vec Ideal S5000x2 .f32) (ix2 p e) = (V c main_v15 : S50000x2.Idx → EReal) (ix2 r e) := by
  obtain ⟨-, -, e0, e1, -⟩ := idx_facts2 t
  unfold iblk2
  rw [View.read_apply]
  show V c main_v15 _ = V c main_v15 _
  congr 1
  funext a
  apply Fin.ext
  match a with
  | ⟨0, _⟩ => show win2_1.index t 0 * 5000 + 1 * p.val = r.val; rw [e0, hr]; omega
  | ⟨1, _⟩ => show win2_1.index t 1 * 2 + 1 * e.val = e.val; rw [e1]; omega

/-- The weights' block at every point is the whole matrix. -/
theorem w_blk2 (c : Dev nD) (t : Fin cfg2.N) (k : Fin 128) (q : Fin 128) :
    (iblk2 V c 2 t : Vec Ideal S128x128 .f32) (ix2 k q) = (V c main_arg7 : S128x128.Idx → EReal) (ix2 k q) := by
  obtain ⟨-, -, -, -, e0, e1, -⟩ := idx_facts2 t
  unfold iblk2
  rw [View.read_apply]
  show V c main_arg7 _ = V c main_arg7 _
  congr 1
  funext a
  apply Fin.ext
  match a with
  | ⟨0, _⟩ => show win2_2.index t 0 * 128 + 1 * k.val = k.val; rw [e0]; omega
  | ⟨1, _⟩ => show win2_2.index t 1 * 128 + 1 * q.val = q.val; rw [e1]; omega

/-- The bias row's block at every point is the whole row. -/
theorem b_blk2 (c : Dev nD) (t : Fin cfg2.N) (q : Fin 128) :
    (iblk2 V c 3 t : Vec Ideal S1x128 .f32) (ix2 (0 : Fin 1) q) = (V c main_v53 : S1x128.Idx → EReal) (ix2 (0 : Fin 1) q) := by
  obtain ⟨-, -, -, -, -, -, e0, e1, -⟩ := idx_facts2 t
  unfold iblk2
  rw [View.read_apply]
  show V c main_v53 _ = V c main_v53 _
  congr 1
  funext a
  apply Fin.ext
  match a with
  | ⟨0, _⟩ => show win2_3.index t 0 * 1 + 1 * 0 = 0; rw [e0]
  | ⟨1, _⟩ => show win2_3.index t 1 * 128 + 1 * q.val = q.val; rw [e1]; omega

/-- The block computed at point `t`, at row `p` of the block and feature `q`, is the layer at row `r = 5000 t + p`. -/
theorem point_eq2 (c : Dev nD) (t : Fin cfg2.N) (p : Fin 5000) (q : Fin 128) (r : Fin 50000) (hr : r.val = t.val * 5000 + p.val) :
    k2_pay1 (F := Ideal) (iblk2 V c 1 t) (iblk2 V c 0 t) (iblk2 V c 2 t) (iblk2 V c 3 t) (ix2 p q)
      = Cert.GraphConv.layerActAt (V c main_v52) (V c main_v15) (V c main_arg7) (V c main_v53) r q := by
  rw [k2_pay1_eq]
  refine (hidden_pay_apply (iblk2 V c 1 t) (iblk2 V c 0 t) (iblk2 V c 2 t) (iblk2 V c 3 t) p q).trans ?_
  unfold Cert.GraphConv.layerActAt
  rw [norm_blk2 V c t p 1 r hr, norm_blk2 V c t p 0 r hr, b_blk2 V c t q]
  simp only [agg_blk2 V c t p _ r hr, w_blk2 V c t _ q]

/-- What point `t` writes back is block `t` of the layer of the region-entry arrays. -/
theorem flushed_eq2 (c : Dev nD) (t : Fin cfg2.N) :
    (dat2 (F := Ideal) V c).flushed 4 t = ((cfg2.win 4).blk t).view.read (Elt Ideal)
      (Cert.GraphConv.layerAct (V c main_v52) (V c main_v15) (V c main_arg7) (V c main_v53)) := by
  show (cfg2.win 4).cut (grid2.coords t) ((dat2 V c).after 4 t) = _
  rw [after2_4]
  unfold out2_4
  rw [View.canon_unit_zero hz]
  simp only [View.ld_unit_zero (S := S5000x2) hz, View.ld_unit_zero (S := S5000x128) hz, View.ld_unit_zero (S := S128x128) hz, View.ld_unit_zero (S := S1x128) hz]
  funext j
  have ht : t.val < 10 := lt_of_lt_of_eq t.isLt N_2
  have hp : (j 0).val < 5000 := (j 0).isLt
  have hq : (j 1).val < 128 := (j 1).isLt
  obtain ⟨-, -, -, -, -, -, -, -, e0, e1⟩ := idx_facts2 t
  have hx : (win2 4).xinj (grid2.coords t) j = (ix2 (⟨(j 0).val, hp⟩ : Fin 5000) (⟨(j 1).val, hq⟩ : Fin 128) : S5000x128.Idx) :=
    funext fun a => by
      match a with
      | ⟨0, _⟩ => rfl
      | ⟨1, _⟩ => rfl
  have hemb : ((cfg2.win 4).blk t).view.emb j
      = (ix2 (⟨t.val * 5000 + (j 0).val, by omega⟩ : Fin 50000) (⟨(j 1).val, hq⟩ : Fin 128) : S50000x128.Idx) := by
    funext a; apply Fin.ext
    match a with
    | ⟨0, _⟩ => show win2_4.index t 0 * 5000 + 1 * (j 0).val = t.val * 5000 + (j 0).val; rw [e0]; omega
    | ⟨1, _⟩ => show win2_4.index t 1 * 128 + 1 * (j 1).val = (j 1).val; rw [e1]; omega
  refine (congrArg (k2_pay1 (F := Ideal) (iblk2 V c 1 t) (iblk2 V c 0 t) (iblk2 V c 2 t) (iblk2 V c 3 t)) hx).trans ?_
  rw [View.read_apply]
  refine Eq.trans ?_ (congrArg (Cert.GraphConv.layerAct (V c main_v52) (V c main_v15) (V c main_arg7) (V c main_v53)) hemb).symm
  exact point_eq2 V c t ⟨(j 0).val, hp⟩ ⟨(j 1).val, hq⟩ ⟨t.val * 5000 + (j 0).val, by omega⟩ rfl

/-- An index of the output is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v54).slice (win2_4.rect t)).set ↔ _
  rw [View.set_slice_whole, Rect.mem_set_unit]
  exact Iff.rfl

/-- Row `r` of the output is written by point `r / 5000`: the ten blocks of 5000 rows cover the array. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, htv⟩ : ∃ t : Fin cfg2.N, t.val = (i 0).val / 5000 :=
    ⟨⟨(i 0).val / 5000, lt_of_lt_of_eq (by omega : (i 0).val / 5000 < 10) N_2.symm⟩, rfl⟩
  obtain ⟨-, -, -, -, -, -, -, -, e0, e1⟩ := idx_facts2 t
  refine ⟨t, flush2_4 t, ?_⟩
  rw [mem_blk2]
  intro a
  match a with
  | ⟨0, _⟩ => show win2_4.index t 0 * 5000 ≤ (i 0).val ∧ (i 0).val < win2_4.index t 0 * 5000 + 5000; rw [e0, htv]; omega
  | ⟨1, _⟩ => show win2_4.index t 1 * 128 ≤ (i 1).val ∧ (i 1).val < win2_4.index t 1 * 128 + 128; rw [e1]; omega

/-- The output array after the region: the layer of the region-entry arrays. -/
theorem final2 (c : Dev nD) : (dat2 (F := Ideal) V c).arrAt 4 cfg2.N
    = Cert.GraphConv.layerAct (V c main_v52) (V c main_v15) (V c main_arg7) (V c main_v53) :=
  (dat2 (F := Ideal) V c).arrAt_eq_of_cover 4 _ (fun t _ => flushed_eq2 V c t) cover2

/-! ## Region 3 -/

/-- The index maps of this layer's windows, decided over the grid: the row windows sit at block `t`, the
    weights and the bias row at block zero. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point `t` is rows `5000 t …` of the aggregate. -/
theorem agg_blk3 (c : Dev nD) (t : Fin cfg3.N) (p : Fin 5000) (k : Fin 128) (r : Fin 50000) (hr : r.val = t.val * 5000 + p.val) :
    (iblk3 V c 0 t : Vec Ideal S5000x128 .f32) (ix2 p k) = (V c main_v64 : S50000x128.Idx → EReal) (ix2 r k) := by
  obtain ⟨e0, e1, -⟩ := idx_facts3 t
  unfold iblk3
  rw [View.read_apply]
  show V c main_v64 _ = V c main_v64 _
  congr 1
  funext a
  apply Fin.ext
  match a with
  | ⟨0, _⟩ => show win3_0.index t 0 * 5000 + 1 * p.val = r.val; rw [e0, hr]; omega
  | ⟨1, _⟩ => show win3_0.index t 1 * 128 + 1 * k.val = k.val; rw [e1]; omega

/-- The normalisers' block at point `t` is rows `5000 t …` of the normalisers. -/
theorem norm_blk3 (c : Dev nD) (t : Fin cfg3.N) (p : Fin 5000) (e : Fin 2) (r : Fin 50000) (hr : r.val = t.val * 5000 + p.val) :
    (iblk3 V c 1 t : Vec Ideal S5000x2 .f32) (ix2 p e) = (V c main_v15 : S50000x2.Idx → EReal) (ix2 r e) := by
  obtain ⟨-, -, e0, e1, -⟩ := idx_facts3 t
  unfold iblk3
  rw [View.read_apply]
  show V c main_v15 _ = V c main_v15 _
  congr 1
  funext a
  apply Fin.ext
  match a with
  | ⟨0, _⟩ => show win3_1.index t 0 * 5000 + 1 * p.val = r.val; rw [e0, hr]; omega
  | ⟨1, _⟩ => show win3_1.index t 1 * 2 + 1 * e.val = e.val; rw [e1]; omega

/-- The weights' block at every point is the whole matrix. -/
theorem w_blk3 (c : Dev nD) (t : Fin cfg3.N) (k : Fin 128) (q : Fin 64) :
    (iblk3 V c 2 t : Vec Ideal S128x64 .f32) (ix2 k q) = (V c main_arg9 : S128x64.Idx → EReal) (ix2 k q) := by
  obtain ⟨-, -, -, -, e0, e1, -⟩ := idx_facts3 t
  unfold iblk3
  rw [View.read_apply]
  show V c main_arg9 _ = V c main_arg9 _
  congr 1
  funext a
  apply Fin.ext
  match a with
  | ⟨0, _⟩ => show win3_2.index t 0 * 128 + 1 * k.val = k.val; rw [e0]; omega
  | ⟨1, _⟩ => show win3_2.index t 1 * 64 + 1 * q.val = q.val; rw [e1]; omega

/-- The bias row's block at every point is the whole row. -/
theorem b_blk3 (c : Dev nD) (t : Fin cfg3.N) (q : Fin 64) :
    (iblk3 V c 3 t : Vec Ideal S1x64 .f32) (ix2 (0 : Fin 1) q) = (V c main_v65 : S1x64.Idx → EReal) (ix2 (0 : Fin 1) q) := by
  obtain ⟨-, -, -, -, -, -, e0, e1, -⟩ := idx_facts3 t
  unfold iblk3
  rw [View.read_apply]
  show V c main_v65 _ = V c main_v65 _
  congr 1
  funext a
  apply Fin.ext
  match a with
  | ⟨0, _⟩ => show win3_3.index t 0 * 1 + 1 * 0 = 0; rw [e0]
  | ⟨1, _⟩ => show win3_3.index t 1 * 64 + 1 * q.val = q.val; rw [e1]; omega

/-- The block computed at point `t`, at row `p` of the block and class `q`, is the layer at row `r = 5000 t + p`. -/
theorem point_eq3 (c : Dev nD) (t : Fin cfg3.N) (p : Fin 5000) (q : Fin 64) (r : Fin 50000) (hr : r.val = t.val * 5000 + p.val) :
    k3_pay1 (F := Ideal) (iblk3 V c 1 t) (iblk3 V c 0 t) (iblk3 V c 2 t) (iblk3 V c 3 t) (ix2 p q)
      = Cert.GraphConv.layerLinAt (V c main_v64) (V c main_v15) (V c main_arg9) (V c main_v65) r q := by
  refine (last_pay_apply (iblk3 V c 1 t) (iblk3 V c 0 t) (iblk3 V c 2 t) (iblk3 V c 3 t) p q).trans ?_
  unfold Cert.GraphConv.layerLinAt
  rw [norm_blk3 V c t p 1 r hr, b_blk3 V c t q]
  simp only [agg_blk3 V c t p _ r hr, w_blk3 V c t _ q]

/-- What point `t` writes back is block `t` of the layer of the region-entry arrays. -/
theorem flushed_eq3 (c : Dev nD) (t : Fin cfg3.N) :
    (dat3 (F := Ideal) V c).flushed 4 t = ((cfg3.win 4).blk t).view.read (Elt Ideal)
      (Cert.GraphConv.layerLin (V c main_v64) (V c main_v15) (V c main_arg9) (V c main_v65)) := by
  show (cfg3.win 4).cut (grid3.coords t) ((dat3 V c).after 4 t) = _
  rw [after3_4]
  unfold out3_4
  rw [View.canon_unit_zero hz]
  simp only [View.ld_unit_zero (S := S5000x2) hz, View.ld_unit_zero (S := S5000x128) hz, View.ld_unit_zero (S := S128x64) hz, View.ld_unit_zero (S := S1x64) hz]
  funext j
  have ht : t.val < 10 := lt_of_lt_of_eq t.isLt N_3
  have hp : (j 0).val < 5000 := (j 0).isLt
  have hq : (j 1).val < 64 := (j 1).isLt
  obtain ⟨-, -, -, -, -, -, -, -, e0, e1⟩ := idx_facts3 t
  have hx : (win3 4).xinj (grid3.coords t) j = (ix2 (⟨(j 0).val, hp⟩ : Fin 5000) (⟨(j 1).val, hq⟩ : Fin 64) : S5000x64.Idx) :=
    funext fun a => by
      match a with
      | ⟨0, _⟩ => rfl
      | ⟨1, _⟩ => rfl
  have hemb : ((cfg3.win 4).blk t).view.emb j
      = (ix2 (⟨t.val * 5000 + (j 0).val, by omega⟩ : Fin 50000) (⟨(j 1).val, hq⟩ : Fin 64) : S50000x64.Idx) := by
    funext a; apply Fin.ext
    match a with
    | ⟨0, _⟩ => show win3_4.index t 0 * 5000 + 1 * (j 0).val = t.val * 5000 + (j 0).val; rw [e0]; omega
    | ⟨1, _⟩ => show win3_4.index t 1 * 64 + 1 * (j 1).val = (j 1).val; rw [e1]; omega
  refine (congrArg (k3_pay1 (F := Ideal) (iblk3 V c 1 t) (iblk3 V c 0 t) (iblk3 V c 2 t) (iblk3 V c 3 t)) hx).trans ?_
  rw [View.read_apply]
  refine Eq.trans ?_ (congrArg (Cert.GraphConv.layerLin (V c main_v64) (V c main_v15) (V c main_arg9) (V c main_v65)) hemb).symm
  exact point_eq3 V c t ⟨(j 0).val, hp⟩ ⟨(j 1).val, hq⟩ ⟨t.val * 5000 + (j 0).val, by omega⟩ rfl

/-- An index of the output is in point `t`'s block iff each coordinate is in the block's range on its axis. -/
theorem mem_blk3 (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v66).slice (win3_4.rect t)).set ↔ _
  rw [View.set_slice_whole, Rect.mem_set_unit]
  exact Iff.rfl

/-- Row `r` of the output is written by point `r / 5000`: the ten blocks of 5000 rows cover the array. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, htv⟩ : ∃ t : Fin cfg3.N, t.val = (i 0).val / 5000 :=
    ⟨⟨(i 0).val / 5000, lt_of_lt_of_eq (by omega : (i 0).val / 5000 < 10) N_3.symm⟩, rfl⟩
  obtain ⟨-, -, -, -, -, -, -, -, e0, e1⟩ := idx_facts3 t
  refine ⟨t, flush3_4 t, ?_⟩
  rw [mem_blk3]
  intro a
  match a with
  | ⟨0, _⟩ => show win3_4.index t 0 * 5000 ≤ (i 0).val ∧ (i 0).val < win3_4.index t 0 * 5000 + 5000; rw [e0, htv]; omega
  | ⟨1, _⟩ => show win3_4.index t 1 * 64 ≤ (i 1).val ∧ (i 1).val < win3_4.index t 1 * 64 + 64; rw [e1]; omega

/-- The output array after the region: the last layer of the region-entry arrays. -/
theorem final3 (c : Dev nD) : (dat3 (F := Ideal) V c).arrAt 4 cfg3.N
    = Cert.GraphConv.layerLin (V c main_v64) (V c main_v15) (V c main_arg9) (V c main_v65) :=
  (dat3 (F := Ideal) V c).arrAt_eq_of_cover 4 _ (fun t _ => flushed_eq3 V c t) cover3

end Cert.KernelIdeal.DenseValue

end
-- ==== Proof.ReadoutBlocks.lean ====
/-
  The readout region, read as values on the extended reals.

  The region walks the 50000 nodes in ten blocks of 5000 rows. At each block it leaves two things. In the per-node
  column, rows `5000 t … 5000 t + 4999`: for each row `p` of the block, the product of that row of the node features
  with the single weight column, `∑ₖ h (5000 t + p, k) · Wp (k, 0)`, plus the scalar bias `bp (0, 0)` — a matrix
  product into a zero accumulator, so over the extended reals exactly that sum. In the one [1,64] feature row, which
  every block revisits: at the first block zero plus the block's column sums `∑ₚ h (p, q)`, at each later block what
  the block before left plus its own column sums.

  Hence after block `n` the feature row holds, at feature `q`, the sum of `h (·, q)` over the rows of blocks
  `0, …, n` (induction on the block), and after the tenth block the sum over all 50000 rows: a row `r` is row
  `r % 5000` of block `r / 5000`, so the ten blocks of 5000 rows re-index `Fin 50000` as `Fin 10 × Fin 5000`.
  Addition on the extended reals is commutative and associative, which is all the re-indexing uses.

  The per-node column is written back after every block, each block to its own 5000 rows, and row `r` is covered by
  block `r / 5000`; the feature row is written back once, after the last block, and that one block is the whole row.
  So the two arrays end as the projection and the node sum of the specification, as functions of the node features,
  the weight column and the bias as the region finds them.
-/
import proofs.«134515_j11364483465281_1_alg».proof.Proof.Gen.KernelIdeal.Frame
import proofs.«134515_j11364483465281_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ReadoutValue

open Cert.KernelIdeal Cert.KernelIdeal.Gen

section Pieces

variable {F : FTy → Type} [FloatOps F]

/-- The zero offsets of a two-axis block, however they are spelt. -/
theorem hz : (![0, 0] : Fin 2 → Nat) = fun _ => 0 := funext fun a => by fin_cases a <;> rfl

/-- At every point the per-node column block is the projection payload of the three input blocks: one covering
    store, whose loads read the whole buffers. (First point.) -/
theorem colA (c : Dev nD) (i : grid4.Coords) (a1 : Memref sig .tc .vmem S5000x64 .f32) (h1 : a1.IsWhole)
    (a2 : Memref sig .tc .vmem S64x1 .f32) (h2 : a2.IsWhole) (a3 : Memref sig .tc .vmem S1x1 .f32) (h3 : a3.IsWhole)
    (a4 : Memref sig .tc .vmem S5000x1 .f32) (h4 : a4.IsWhole) (a5 : Memref sig .tc .vmem S1x64 .f32) (h5 : a5.IsWhole)
    (hc : cond4_0 i) (x0 : Vec F S5000x64 .f32) (x1 : Vec F S64x1 .f32) (x2 : Vec F S1x1 .f32) :
    out4_A_3 c i a1 h1 a2 h2 a3 h3 a4 h4 a5 h5 hc x0 x1 x2 = k4_pay4 x0 x1 x2 := by
  unfold out4_A_3
  rw [View.read_writes_eq_canon _ _ _ (cover4_A_3 c i a1 h1 a2 h2 a3 h3 a4 h4 a5 h5 hc x0 x1 x2)]
  unfold kernelRun4_A
  dsimp only
  sl_unfold_words
  rw [View.canon_unit_zero hz]
  simp only [View.readAt_eq_ld, h1.read_unread, h2.read_unread, h3.read_unread,
    View.ld_unit_zero (S := S5000x64) hz, View.ld_unit_zero (S := S64x1) hz, View.ld_unit_zero (S := S1x1) hz]

/-- The same at a later point. -/
theorem colB (c : Dev nD) (i : grid4.Coords) (a1 : Memref sig .tc .vmem S5000x64 .f32) (h1 : a1.IsWhole)
    (a2 : Memref sig .tc .vmem S64x1 .f32) (h2 : a2.IsWhole) (a3 : Memref sig .tc .vmem S1x1 .f32) (h3 : a3.IsWhole)
    (a4 : Memref sig .tc .vmem S5000x1 .f32) (h4 : a4.IsWhole) (a5 : Memref sig .tc .vmem S1x64 .f32) (h5 : a5.IsWhole)
    (hc : ¬cond4_0 i) (x0 : Vec F S5000x64 .f32) (x1 : Vec F S64x1 .f32) (x2 : Vec F S1x1 .f32) (xo : Vec F S1x64 .f32) :
    out4_B_3 c i a1 h1 a2 h2 a3 h3 a4 h4 a5 h5 hc x0 x1 x2 xo = k4_pay4 x0 x1 x2 := by
  unfold out4_B_3
  rw [View.read_writes_eq_canon _ _ _ (cover4_B_3 c i a1 h1 a2 h2 a3 h3 a4 h4 a5 h5 hc x0 x1 x2 xo)]
  unfold kernelRun4_B
  dsimp only
  sl_unfold_words
  rw [View.canon_unit_zero hz]
  simp only [View.readAt_eq_ld, h1.read_unread, h2.read_unread, h3.read_unread,
    View.ld_unit_zero (S := S5000x64) hz, View.ld_unit_zero (S := S64x1) hz, View.ld_unit_zero (S := S1x1) hz]

/-- At the first point the feature row is first zeroed, read back, and the block's column sums added to it. -/
theorem rowA (c : Dev nD) (i : grid4.Coords) (a1 : Memref sig .tc .vmem S5000x64 .f32) (h1 : a1.IsWhole)
    (a2 : Memref sig .tc .vmem S64x1 .f32) (h2 : a2.IsWhole) (a3 : Memref sig .tc .vmem S1x1 .f32) (h3 : a3.IsWhole)
    (a4 : Memref sig .tc .vmem S5000x1 .f32) (h4 : a4.IsWhole) (a5 : Memref sig .tc .vmem S1x64 .f32) (h5 : a5.IsWhole)
    (hc : cond4_0 i) (x0 : Vec F S5000x64 .f32) (x1 : Vec F S64x1 .f32) (x2 : Vec F S1x1 .f32) :
    out4_A_4 c i a1 h1 a2 h2 a3 h3 a4 h4 a5 h5 hc x0 x1 x2 = k4_pay3 x0 k4_pay1 := by
  unfold out4_A_4
  rw [View.read_writes_eq_canon _ _ _ (cover4_A_4 c i a1 h1 a2 h2 a3 h3 a4 h4 a5 h5 hc x0 x1 x2)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S5000x64) hz]

/-- At a later point the block's column sums are added to what the row held. -/
theorem rowB (c : Dev nD) (i : grid4.Coords) (a1 : Memref sig .tc .vmem S5000x64 .f32) (h1 : a1.IsWhole)
    (a2 : Memref sig .tc .vmem S64x1 .f32) (h2 : a2.IsWhole) (a3 : Memref sig .tc .vmem S1x1 .f32) (h3 : a3.IsWhole)
    (a4 : Memref sig .tc .vmem S5000x1 .f32) (h4 : a4.IsWhole) (a5 : Memref sig .tc .vmem S1x64 .f32) (h5 : a5.IsWhole)
    (hc : ¬cond4_0 i) (x0 : Vec F S5000x64 .f32) (x1 : Vec F S64x1 .f32) (x2 : Vec F S1x1 .f32) (xo : Vec F S1x64 .f32) :
    out4_B_4 c i a1 h1 a2 h2 a3 h3 a4 h4 a5 h5 hc x0 x1 x2 xo = k4_pay3 x0 xo := by
  unfold out4_B_4
  rw [View.read_writes_eq_canon _ _ _ (cover4_B_4 c i a1 h1 a2 h2 a3 h3 a4 h4 a5 h5 hc x0 x1 x2 xo)]
  unfold kernelRun4_B
  dsimp only
  sl_unfold_words
  rw [View.canon_unit_zero hz]
  simp only [View.readAt_eq_ld, h1.read_unread, h5.read_unread, View.ld_unit_zero (S := S5000x64) hz,
    View.ld_unit_zero (S := S1x64) hz]

end Pieces

section Payloads

/-- The zero word is the real number zero. -/
theorem zero_word : Ideal.ofBits .f32 0x00000000#32 = (0 : EReal) := Ideal.ofBits_zero_f32

/-- In the product of a [5000,64] block with a [64,1] column the left operand is read at the output's row … -/
theorem dot_lhs_row (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl

/-- … and the right operand at the output's column. -/
theorem dot_rhs_col (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- The matrix product of a [5000,64] block with a [64,1] column, from a zero accumulator, at row `p`:
    the sum over the 64 features of the products. -/
theorem matmul_col_apply (A : FVec Ideal S5000x64 .bf16) (B : FVec Ideal S64x1 .bf16) (p : Fin 5000) (u : Fin 1) :
    matmul dot_S5000x64_S64x1_S5000x1_1_0_0_1_n_n none A B (constant (F := Ideal) S5000x1 .f32 0x00000000#32) (ix2 p u)
      = ∑ k : Fin 64, A (ix2 p k) * B (ix2 k (0 : Fin 1)) := by
  simp only [matmul]
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p u) ((contrEquiv1 dot_S5000x64_S64x1_S5000x1_1_0_0_1_n_n 64 rfl rfl).symm k) = ix2 p k :=
    funext fun a => Fin.ext (by
      match a with
      | ⟨0, _⟩ => exact dot_lhs_row _ _
      | ⟨1, _⟩ => exact (dot_S5000x64_S64x1_S5000x1_1_0_0_1_n_n.lhsIdx_val_of_single rfl _ _).trans hk)
  have er : dot_S5000x64_S64x1_S5000x1_1_0_0_1_n_n.rhsIdx (ix2 p u) ((contrEquiv1 dot_S5000x64_S64x1_S5000x1_1_0_0_1_n_n 64 rfl rfl).symm k) = ix2 k (0 : Fin 1) :=
    funext fun a => Fin.ext (by
      match a with
      | ⟨0, _⟩ => exact (dot_S5000x64_S64x1_S5000x1_1_0_0_1_n_n.rhsIdx_val_of_single rfl _ _).trans hk
      | ⟨1, _⟩ => exact (dot_rhs_col _ _).trans (show u.val = 0 by omega))
  rw [el, er]

/-- The projection payload at row `p` of a block: the row's product with the column, plus the scalar bias. -/
theorem proj_block_apply (x0 : Vec Ideal S5000x64 .f32) (x1 : Vec Ideal S64x1 .f32) (x2 : Vec Ideal S1x1 .f32)
    (p : Fin 5000) (u : Fin 1) :
    k4_pay4 (F := Ideal) x0 x1 x2 (ix2 p u)
      = (∑ k : Fin 64, x0 (ix2 p k) * x1 (ix2 k (0 : Fin 1))) + x2 (ix2 (0 : Fin 1) (0 : Fin 1)) := by
  unfold k4_pay4 k4_pay2
  dsimp only
  refine (addf_apply _ _ _).trans ?_
  refine congrArg₂ (· + ·) ((matmul_col_apply _ _ p u).trans ?_) ?_
  · refine Finset.sum_congr rfl fun k _ => ?_
    rw [shapeCast_self]
    rfl
  · rw [shapeCast_self]
    refine broadcastTo_apply _ _ (ix2 p u) (ix2 (0 : Fin 1) (0 : Fin 1)) fun a => ?_
    match a with
    | ⟨0, _⟩ => rfl
    | ⟨1, _⟩ => rfl

/-- The index of a [5000,64] block over feature `q` with row `k` put back is `(k, q)`. -/
theorem lift_row (q : Fin 64) (k : Fin (S5000x64.size 0)) :
    reduces_S5000x64_S64.lift (ix1 q) k = ix2 (⟨k.val, k.isLt⟩ : Fin 5000) q := by
  funext c; apply Fin.ext
  fin_cases c <;> rfl

/-- The sum of a [5000,64] block over its rows, at feature `q`, from the zero word (the neutral word of addition):
    the sum over the 5000 rows of the block's entries at `(p, q)`. -/
theorem colsum_apply (X : FVec Ideal S5000x64 .f32) (hφ : FKind.Formats .f32)
    (hacc : (0x00000000#32 : BitVec 32) = 0x00000000#32) (q : Fin 64) :
    multiReduction (F := Ideal) .add [0] S64 X 0x00000000#32 reduces_S5000x64_S64 hφ hacc (ix1 q)
      = ∑ p : Fin 5000, X (ix2 p q) :=
  (Ideal.multiReduction_add_single X 0x00000000#32 reduces_S5000x64_S64 hφ hacc (ix1 q)).trans
    (Finset.sum_congr rfl fun k _ => congrArg X (lift_row q k))

/-- The accumulation payload at feature `q`: what the row held plus the block's column sum. -/
theorem acc_block_apply (x0 : Vec Ideal S5000x64 .f32) (xo : Vec Ideal S1x64 .f32) (u : Fin 1) (q : Fin 64) :
    k4_pay3 (F := Ideal) x0 xo (ix2 u q) = xo (ix2 u q) + ∑ p : Fin 5000, x0 (ix2 p q) := by
  unfold k4_pay3 k4_pay2
  dsimp only
  refine (addf_apply _ _ _).trans ?_
  refine congrArg₂ (· + ·) ?_ ?_
  · rw [shapeCast_self]
  · refine (shapeCast_a_1a_apply _ shapeCasts_S64_S1x64 u q).trans ?_
    refine (colsum_apply _ _ rfl q).trans ?_
    rw [shapeCast_self]

/-- The block the first point stores before accumulating is zero everywhere. -/
theorem zero_block_apply (j : S1x64.Idx) : k4_pay1 (F := Ideal) j = 0 := by
  unfold k4_pay1
  exact zero_word

end Payloads

section Sums

/-- Entry `(5000 s + p, q)` of the node features as a function of a natural block number `s`: zero past the tenth
    block (there is none). -/
def blockEntry (H : FVec Ideal S50000x64 .f32) (q : Fin 64) (s : ℕ) (p : Fin 5000) : EReal :=
  if h : s < 10 then H (ix2 (⟨5000 * s + p.val, by have := p.isLt; omega⟩ : Fin 50000) q) else 0

/-- Feature `q` summed over the rows of blocks `0, …, n`. -/
def partialSum (H : FVec Ideal S50000x64 .f32) (q : Fin 64) (n : ℕ) : EReal :=
  ∑ s ∈ Finset.range (n + 1), ∑ p : Fin 5000, blockEntry H q s p

theorem partialSum_zero (H : FVec Ideal S50000x64 .f32) (q : Fin 64) :
    partialSum H q 0 = ∑ p : Fin 5000, blockEntry H q 0 p := by
  unfold partialSum
  rw [Finset.sum_range_succ, Finset.sum_range_zero, zero_add]

theorem partialSum_succ (H : FVec Ideal S50000x64 .f32) (q : Fin 64) (n : ℕ) :
    partialSum H q (n + 1) = partialSum H q n + ∑ p : Fin 5000, blockEntry H q (n + 1) p := by
  unfold partialSum
  rw [Finset.sum_range_succ]

/-- The ten blocks of 5000 rows are all the 50000 rows: row `r` is row `r % 5000` of block `r / 5000`. -/
theorem partialSum_last (H : FVec Ideal S50000x64 .f32) (q : Fin 64) :
    partialSum H q 9 = ∑ r : Fin 50000, H (ix2 r q) := by
  unfold partialSum
  rw [← Fin.sum_univ_eq_sum_range (fun s => ∑ p : Fin 5000, blockEntry H q s p) (9 + 1)]
  have e := Equiv.sum_comp (finProdFinEquiv : Fin 10 × Fin 5000 ≃ Fin (10 * 5000))
    (fun r : Fin (10 * 5000) => H (ix2 (⟨r.val, r.isLt⟩ : Fin 50000) q))
  refine Eq.trans ?_ (e.trans ?_)
  · rw [Fintype.sum_prod_type]
    refine Finset.sum_congr rfl fun s _ => Finset.sum_congr rfl fun p _ => ?_
    unfold blockEntry
    rw [dif_pos s.isLt]
    refine congrArg H (congrArg (fun r : Fin 50000 => ix2 r q) (Fin.ext ?_))
    show 5000 * s.val + p.val = p.val + 5000 * s.val
    omega
  · rfl

end Sums

section Blocks

variable (V : (c : Dev nD) → (b : Ref sig .tc) → Buf (Elt Ideal) ((c : Thread nD τ).loc b))

/-- The ten points of the grid. -/
theorem ten_points (t : Fin cfg4.N) : t.val < 10 := lt_of_lt_of_eq t.isLt (show cfg4.N = 10 from N_4)

/-- The index maps, decided once over the ten points: the node-feature window and the per-node column move one
    block of 5000 rows per point, the weight column, the bias and the feature row stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0 :=
  (by decide +kernel : ∀ t : Fin grid4.N, _)

/-- Row `p` of the node-feature block of point `t` is row `5000 t + p` of the node features. -/
theorem feat_block_apply (c : Dev nD) (t : Fin cfg4.N) (p : Fin 5000) (k : Fin 64) (r : Fin 50000)
    (hr : r.val = 5000 * t.val + p.val) :
    (iblk4 V c 0 t : Vec Ideal S5000x64 .f32) (ix2 p k) = (V c main_v66 : FVec Ideal S50000x64 .f32) (ix2 r k) := by
  obtain ⟨e0, e1, -⟩ := idx_facts t
  unfold iblk4
  rw [View.read_apply]
  show V c main_v66 _ = V c main_v66 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 64 + 1 * k.val = k.val; rw [e1]; omega

/-- The weight column's one block is the whole column. -/
theorem weight_block_apply (c : Dev nD) (t : Fin cfg4.N) (k : Fin 64) (u : Fin 1) :
    (iblk4 V c 1 t : Vec Ideal S64x1 .f32) (ix2 k u) = (V c main_arg11 : FVec Ideal S64x1 .f32) (ix2 k u) := by
  obtain ⟨-, -, e2, e3, -⟩ := idx_facts t
  unfold iblk4
  rw [View.read_apply]
  show V c main_arg11 _ = V c main_arg11 _
  congr 1
  funext a
  apply Fin.ext
  match a with
  | ⟨0, _⟩ => show win4_1.index t (0 : Fin 2) * 64 + 1 * k.val = k.val; rw [e2]; omega
  | ⟨1, _⟩ => show win4_1.index t (1 : Fin 2) * 1 + 1 * u.val = u.val; rw [e3]; omega

/-- The bias's one block is the whole [1,1] array. -/
theorem bias_block_apply (c : Dev nD) (t : Fin cfg4.N) (u v : Fin 1) :
    (iblk4 V c 2 t : Vec Ideal S1x1 .f32) (ix2 u v) = (V c main_v67 : FVec Ideal S1x1 .f32) (ix2 u v) := by
  obtain ⟨-, -, -, -, e4, e5, -⟩ := idx_facts t
  unfold iblk4
  rw [View.read_apply]
  show V c main_v67 _ = V c main_v67 _
  congr 1
  funext a
  apply Fin.ext
  match a with
  | ⟨0, _⟩ => show win4_2.index t (0 : Fin 2) * 1 + 1 * u.val = u.val; rw [e4]; omega
  | ⟨1, _⟩ => show win4_2.index t (1 : Fin 2) * 1 + 1 * v.val = v.val; rw [e5]; omega

/-- After every point the per-node column block holds the projection payload of the point's three input blocks. -/
theorem col_at (c : Dev nD) (t : Fin cfg4.N) :
    (outsAt4 V c t.val t.isLt).1 = k4_pay4 (F := Ideal) (iblk4 V c 0 t) (iblk4 V c 1 t) (iblk4 V c 2 t) := by
  by_cases h0 : t.val % 10 = 0
  · rw [outsAt4_A V c t h0]
    dsimp only
    exact colA (F := Ideal) c (grid4.coords t) (ms4_0 t) (hs4_0 t) (ms4_1 t) (hs4_1 t) (ms4_2 t) (hs4_2 t) (ms4_3 t) (hs4_3 t)
      (ms4_4 t) (hs4_4 t) ((hcond4_0 t).mpr h0) (iblk4 V c 0 t) (iblk4 V c 1 t) (iblk4 V c 2 t)
  · rw [outsAt4_B V c t h0]
    dsimp only
    exact colB (F := Ideal) c (grid4.coords t) (ms4_0 t) (hs4_0 t) (ms4_1 t) (hs4_1 t) (ms4_2 t) (hs4_2 t) (ms4_3 t) (hs4_3 t)
      (ms4_4 t) (hs4_4 t) (fun h => h0 ((hcond4_0 t).mp h)) (iblk4 V c 0 t) (iblk4 V c 1 t) (iblk4 V c 2 t)
      (outsAt4 V c (t.val - 1) (Nat.lt_of_le_of_lt (Nat.sub_le _ _) t.isLt)).2

/-- After the first point the feature row holds the zero block plus the first block's column sums. -/
theorem row_first (c : Dev nD) (t : Fin cfg4.N) (h0 : t.val % 10 = 0) :
    (outsAt4 V c t.val t.isLt).2 = k4_pay3 (F := Ideal) (iblk4 V c 0 t) (k4_pay1 (F := Ideal)) := by
  rw [outsAt4_A V c t h0]
  exact rowA (F := Ideal) c (grid4.coords t) (ms4_0 t) (hs4_0 t) (ms4_1 t) (hs4_1 t) (ms4_2 t) (hs4_2 t) (ms4_3 t) (hs4_3 t)
    (ms4_4 t) (hs4_4 t) ((hcond4_0 t).mpr h0) (iblk4 V c 0 t) (iblk4 V c 1 t) (iblk4 V c 2 t)

/-- After a later point it holds what the point before left plus the point's block's column sums. -/
theorem row_later (c : Dev nD) (t : Fin cfg4.N) (h0 : ¬t.val % 10 = 0) :
    (outsAt4 V c t.val t.isLt).2
      = k4_pay3 (F := Ideal) (iblk4 V c 0 t) (outsAt4 V c (t.val - 1) (Nat.lt_of_le_of_lt (Nat.sub_le _ _) t.isLt)).2 := by
  rw [outsAt4_B V c t h0]
  exact rowB (F := Ideal) c (grid4.coords t) (ms4_0 t) (hs4_0 t) (ms4_1 t) (hs4_1 t) (ms4_2 t) (hs4_2 t) (ms4_3 t) (hs4_3 t)
    (ms4_4 t) (hs4_4 t) (fun h => h0 ((hcond4_0 t).mp h)) (iblk4 V c 0 t) (iblk4 V c 1 t) (iblk4 V c 2 t)
    (outsAt4 V c (t.val - 1) (Nat.lt_of_le_of_lt (Nat.sub_le _ _) t.isLt)).2

end Blocks

section Finals

variable (V : (c : Dev nD) → (b : Ref sig .tc) → Buf (Elt Ideal) ((c : Thread nD τ).loc b))

/-- An entry of the node-feature block of point `t` is the entry of row block `t`. -/
theorem feat_entry (c : Dev nD) (t : Fin cfg4.N) (p : Fin 5000) (q : Fin 64) :
    (iblk4 V c 0 t : Vec Ideal S5000x64 .f32) (ix2 p q) = blockEntry (V c main_v66) q t.val p := by
  unfold blockEntry
  rw [dif_pos (ten_points t)]
  exact feat_block_apply V c t p q _ rfl

/-- THE RUNNING SUM. After point `n` the feature row holds, at feature `q`, the sum of that feature over the rows
    of blocks `0, …, n`: the first point adds its block's column sums to the zero block, every later point adds
    its own to what the point before left. By induction on the point. -/
theorem row_at (c : Dev nD) : ∀ (n : ℕ) (h : n < cfg4.N) (u : Fin 1) (q : Fin 64),
    (outsAt4 V c n h).2 (ix2 u q) = partialSum (V c main_v66) q n
  | 0, h, u, q => by
    refine (congrFun (row_first V c ⟨0, h⟩ rfl) (ix2 u q)).trans ?_
    refine (acc_block_apply (iblk4 V c 0 ⟨0, h⟩) (k4_pay1 (F := Ideal)) u q).trans ?_
    rw [zero_block_apply, zero_add, partialSum_zero]
    exact Finset.sum_congr rfl fun p _ => feat_entry V c ⟨0, h⟩ p q
  | n + 1, h, u, q => by
    have hN : cfg4.N = 10 := N_4
    have hB : ¬(⟨n + 1, h⟩ : Fin cfg4.N).val % 10 = 0 := by dsimp only; omega
    refine (congrFun (row_later V c ⟨n + 1, h⟩ hB) (ix2 u q)).trans ?_
    refine (acc_block_apply (iblk4 V c 0 ⟨n + 1, h⟩) _ u q).trans ?_
    rw [partialSum_succ]
    refine congrArg₂ (· + ·) ?_ (Finset.sum_congr rfl fun p _ => feat_entry V c ⟨n + 1, h⟩ p q)
    exact row_at c n (Nat.lt_of_succ_lt h) u q

/-- An index of the per-node column is in point `t`'s block iff each coordinate is in the block's range. -/
theorem mem_col_block (t : Fin cfg4.N) (i : S50000x1.Idx) :
    i ∈ ((cfg4.win 3).blk t).view.set ↔ ∀ a : Fin 2, win4_3.index t a * S5000x1.size a ≤ (i a).val
      ∧ (i a).val < win4_3.index t a * S5000x1.size a + S5000x1.size a := by
  show i ∈ ((View.whole main_v68_0).slice (win4_3.rect t)).set ↔ _
  rw [View.set_slice_whole, Rect.mem_set_unit]
  exact Iff.rfl

/-- An index of the feature row is in its one block iff each coordinate is in the block's range. -/
theorem mem_row_block (t : Fin cfg4.N) (i : S1x64.Idx) :
    i ∈ ((cfg4.win 4).blk t).view.set ↔ ∀ a : Fin 2, win4_4.index t a * S1x64.size a ≤ (i a).val
      ∧ (i a).val < win4_4.index t a * S1x64.size a + S1x64.size a := by
  show i ∈ ((View.whole main_v68_1).slice (win4_4.rect t)).set ↔ _
  rw [View.set_slice_whole, Rect.mem_set_unit]
  exact Iff.rfl

/-- WHAT POINT `t` WRITES BACK to the per-node column is block `t` of the projection of the node features. -/
theorem col_flushed (c : Dev nD) (t : Fin cfg4.N) :
    (dat4 V c).flushed 3 t = ((cfg4.win 3).blk t).view.read (Elt Ideal)
      (Cert.GraphConv.proj (V c main_v66) (V c main_arg11) (V c main_v67)) := by
  show (cfg4.win 3).cut (grid4.coords t) ((dat4 V c).after 3 t) = _
  rw [after4_3, col_at]
  obtain ⟨-, -, -, -, -, -, e6, e7, -, -⟩ := idx_facts t
  funext j
  show k4_pay4 (F := Ideal) (iblk4 V c 0 t) (iblk4 V c 1 t) (iblk4 V c 2 t) j
    = Cert.GraphConv.proj (V c main_v66) (V c main_arg11) (V c main_v67) (((cfg4.win 3).blk t).view.emb j)
  refine (congrArg (k4_pay4 (F := Ideal) (iblk4 V c 0 t) (iblk4 V c 1 t) (iblk4 V c 2 t))
    (eq_ix2 (n0 := 5000) (n1 := 1) j)).trans ?_
  refine (proj_block_apply (iblk4 V c 0 t) (iblk4 V c 1 t) (iblk4 V c 2 t) (j 0) (j 1)).trans ?_
  unfold Cert.GraphConv.proj Cert.GraphConv.projAt
  refine congrArg₂ (· + ·) (Finset.sum_congr rfl fun k _ => congrArg₂ (· * ·) ?_ ?_) ?_
  · refine feat_block_apply V c t (j 0) k _ ?_
    show win4_3.index t (0 : Fin 2) * 5000 + 1 * (j 0).val = 5000 * t.val + (j 0).val
    rw [e6]; omega
  · exact weight_block_apply V c t k 0
  · exact bias_block_apply V c t 0 0

/-- Row `r` of the per-node column is written back by point `r / 5000`. -/
theorem col_cover (i : S50000x1.Idx) :
    ∃ t : Fin cfg4.N, (cfg4.win 3).flush t = true ∧ i ∈ ((cfg4.win 3).blk t).view.set := by
  have hi0 : (i 0).val < 50000 := (i 0).isLt
  have hi1 : (i 1).val < 1 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, e6, e7, -, -⟩ := idx_facts t
  refine ⟨t, flush4_3 t, ?_⟩
  rw [mem_col_block]
  intro a
  match a with
  | ⟨0, _⟩ =>
    show win4_3.index t (0 : Fin 2) * 5000 ≤ (i 0).val ∧ (i 0).val < win4_3.index t (0 : Fin 2) * 5000 + 5000
    rw [e6, ht]; omega
  | ⟨1, _⟩ =>
    show win4_3.index t (1 : Fin 2) * 1 ≤ (i 1).val ∧ (i 1).val < win4_3.index t (1 : Fin 2) * 1 + 1
    rw [e7]; omega

/-- THE PER-NODE COLUMN after the region: the projection of the node features, row by row. -/
theorem final4_proj (c : Dev nD) : (dat4 (F := Ideal) V c).arrAt 3 cfg4.N
    = Cert.GraphConv.proj (V c main_v66) (V c main_arg11) (V c main_v67) :=
  (dat4 V c).arrAt_eq_of_cover 3 _ (fun t _ => col_flushed V c t) col_cover

/-- After the last point the feature row holds every feature summed over all the rows: the running sum after the
    tenth block. -/
theorem row_last (c : Dev nD) (t : Fin cfg4.N) (h9 : t.val = 9) :
    (outsAt4 V c t.val t.isLt).2 = Cert.GraphConv.nodeSum (V c main_v66) := by
  funext i
  obtain ⟨u, q, rfl⟩ : ∃ (u : Fin 1) (q : Fin 64), i = ix2 u q := ⟨i 0, i 1, eq_ix2 i⟩
  refine (row_at V c t.val t.isLt u q).trans ?_
  rw [h9, partialSum_last]
  rfl

/-- WHAT THE LAST POINT WRITES BACK to the feature row — the only write-back of that window — is that row: its one
    block, read through zero offsets, is the whole [1,64] array. -/
theorem row_flushed (c : Dev nD) (t : Fin cfg4.N) (hf : (cfg4.win 4).flush t = true) :
    (dat4 V c).flushed 4 t = ((cfg4.win 4).blk t).view.read (Elt Ideal) (Cert.GraphConv.nodeSum (V c main_v66)) := by
  have h9 : t.val = 9 := by have := (flush4_4 t).mp hf; have := ten_points t; omega
  obtain ⟨-, -, -, -, -, -, -, -, e8, e9⟩ := idx_facts t
  show (cfg4.win 4).cut (grid4.coords t) ((dat4 V c).after 4 t) = _
  rw [after4_4, row_last V c t h9]
  have hz' : (fun a => win4_4.index t a * main_v68_1.ty.shape.size a) = fun _ => 0 := funext fun a => by
    match a with
    | ⟨0, _⟩ => show win4_4.index t (0 : Fin 2) * 1 = 0; rw [e8]
    | ⟨1, _⟩ => show win4_4.index t (1 : Fin 2) * 64 = 0; rw [e9]
  exact (Memref.read_access_unit_zero (Elt Ideal) main_v68_1 hz' (fun a => by rw [congrFun hz' a]; simp)
    (Cert.GraphConv.nodeSum (V c main_v66))).symm

/-- Every entry of the feature row is in the block the last point writes back. -/
theorem row_cover (i : S1x64.Idx) :
    ∃ t : Fin cfg4.N, (cfg4.win 4).flush t = true ∧ i ∈ ((cfg4.win 4).blk t).view.set := by
  have hi0 : (i 0).val < 1 := (i 0).isLt
  have hi1 : (i 1).val < 64 := (i 1).isLt
  have hN : cfg4.N = 10 := N_4
  obtain ⟨t, ht⟩ : ∃ t : Fin cfg4.N, t.val = 9 := ⟨⟨9, by rw [hN]; omega⟩, rfl⟩
  obtain ⟨-, -, -, -, -, -, -, -, e8, e9⟩ := idx_facts t
  refine ⟨t, (flush4_4 t).mpr (by rw [ht]), ?_⟩
  rw [mem_row_block]
  intro a
  match a with
  | ⟨0, _⟩ =>
    show win4_4.index t (0 : Fin 2) * 1 ≤ (i 0).val ∧ (i 0).val < win4_4.index t (0 : Fin 2) * 1 + 1
    rw [e8]; omega
  | ⟨1, _⟩ =>
    show win4_4.index t (1 : Fin 2) * 64 ≤ (i 1).val ∧ (i 1).val < win4_4.index t (1 : Fin 2) * 64 + 64
    rw [e9]; omega

/-- THE FEATURE ROW after the region: every feature summed over all the nodes. -/
theorem final4_sum (c : Dev nD) : (dat4 (F := Ideal) V c).arrAt 4 cfg4.N = Cert.GraphConv.nodeSum (V c main_v66) :=
  (dat4 V c).arrAt_eq_of_cover 4 _ (row_flushed V c) row_cover

end Finals

end Cert.KernelIdeal.ReadoutValue

end
-- ==== Proof.KernelValue.lean ====
/-
  The idealized program's two results are the network of the specification.

  Region by region: what a dense-layer region leaves in its output array is the specification's layer of what it
  found in its four input arrays; those are the message passing over the previous region's output, the normalisers'
  array, the launched weights and the launched bias as a row. The readout region's two outputs are the projection
  and the node sum of the last layer, and the pooled result is the node sum through the value head.
-/
import proofs.«134515_j11364483465281_1_alg».proof.Proof.Net
import proofs.«134515_j11364483465281_1_alg».proof.Proof.KernelRun
import proofs.«134515_j11364483465281_1_alg».proof.Proof.DenseBlocks
import proofs.«134515_j11364483465281_1_alg».proof.Proof.ReadoutBlocks

noncomputable section

namespace Cert.KernelIdeal.Value

open Cert.KernelIdeal Cert.KernelIdeal.Gen Cert.KernelIdeal.Chain Cert.KernelIdeal.Net
open Idealize.ShloMosaic Idealize.ShloMosaic.TcCoe Idealize.SL.Sem

variable (m : (ℓ : Loc nD τ sig) → Buf (Elt Ideal) ℓ) (ρ : Dev nD → PrngReg)

/-- Region 0 leaves the first hidden layer. -/
theorem region0_eq (c : Dev nD) :
    (dat0 (F := Ideal) (V5 m ρ) c).arrAt 4 cfg0.N = hidden0 (m ((c : Thread nD τ).loc main_arg0)) (m ((c : Thread nD τ).loc main_arg1)) (m ((c : Thread nD τ).loc main_arg2)) (m ((c : Thread nD τ).loc main_arg3)) (m ((c : Thread nD τ).loc main_arg4)) := by
  rw [DenseValue.final0 (V5 m ρ) c, in5_v28 m ρ c, in5_v15 m ρ c, in5_arg3 m ρ c, in5_v29 m ρ c]
  rfl

/-- Region 1 leaves the second hidden layer. -/
theorem region1_eq (c : Dev nD) :
    (dat1 (F := Ideal) (V7 m ρ) c).arrAt 4 cfg1.N = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [DenseValue.final1 (V7 m ρ) c, in7_v40 m ρ c, in7_v15 m ρ c, in7_arg5 m ρ c, in7_v41 m ρ c, region0_eq m ρ c]
  rfl

/-- Region 2 leaves the third hidden layer. -/
theorem region2_eq (c : Dev nD) :
    (dat2 (F := Ideal) (V9 m ρ) c).arrAt 4 cfg2.N = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [DenseValue.final2 (V9 m ρ) c, in9_v52 m ρ c, in9_v15 m ρ c, in9_arg7 m ρ c, in9_v53 m ρ c, region1_eq m ρ c]
  rfl

/-- Region 3 leaves the last layer. -/
theorem region3_eq (c : Dev nD) :
    (dat3 (F := Ideal) (V11 m ρ) c).arrAt 4 cfg3.N = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [DenseValue.final3 (V11 m ρ) c, in11_v64 m ρ c, in11_v15 m ρ c, in11_arg9 m ρ c, in11_v65 m ρ c, region2_eq m ρ c]
  rfl

/-- The per-node result is the network's. -/
theorem perNode_eq (c : Dev nD) :
    W15 m ρ c (Proc.devRef .tc main_v68_0) = perNode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [out_v68_0 m ρ c, ReadoutValue.final4_proj (V13 m ρ) c, in13_v66 m ρ c, in13_arg11 m ρ c, in13_v67 m ρ c, region3_eq m ρ c]
  rfl

/-- The pooled result is the network's. -/
theorem pooled_eq (c : Dev nD) :
    W15 m ρ c (Proc.devRef .tc main_v71) = pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := by
  rw [out_v71 m ρ c, ReadoutValue.final4_sum (V13 m ρ) c, in13_v66 m ρ c, region3_eq m ρ c]
  rfl

/-- Every weakly fair execution of the idealized program terminates, nothing faulting, with its two results at the
    network of the launched arguments, and the arguments as launched. -/
theorem run : θ_run defs (onTc (τ := τ) (main (F := Ideal))) ⟨m, fun _ => 0, ρ⟩ (fun r => ∀ c : Dev nD,
      r.2.mem ((c.tc : Thread nD τ).loc main_v68_0) = perNode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_v71) = pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (perNode_eq m ρ c), (h c).2.1.trans (pooled_eq m ρ c), (h c).2.2⟩)
    (RunValue.run_results m ρ)

end Cert.KernelIdeal.Value

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibColumnRowRead.lean ====
/-
  Reading small layout changes of a vector at a pair of coordinates.
  * A length-a vector reshaped to an [a, 1] column, read at (p, 0), is the vector at p; reshaped to a [1, b] row, read at
    (0, q), it is the vector at q (the row-major position is the same).
  * A length-a vector broadcast to an [a, 1] column and then along b lanes, read at (p, c), is the vector at p (a ≠ 1, so
    the row axis is not a unit axis); a length-b vector broadcast to a [1, b] row and then along a rows, read at (p, c),
    is the vector at c (b ≠ 1).
-/
import Idealize.ShloMosaic.Lib.ValueIdx
import Idealize.ShloMosaic.Lib.Pipeline.Value

namespace Cert.Gcn.ColumnRowRead

open Idealize.ShloMosaic Idealize.ShloMosaic.ValueIdx

variable {α : Type}

/-- A vector as a column, read at (p, 0). -/
theorem column_apply {a : ℕ} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A vector as a row, read at (0, q). -/
theorem row_apply {b : ℕ} (v : (⟨1, ![b]⟩ : Shape).Idx → α) (h : (⟨1, ![b]⟩ : Shape).ShapeCasts ⟨2, ![1, b]⟩) (q : Fin b) :
    shapeCast ⟨2, ![1, b]⟩ v h (ix2 (0 : Fin 1) q) = v (ix1 q) :=
  shapeCast_apply v h (ix2 (0 : Fin 1) q) (ix1 q) (by
    rw [Shape.rowMajor_val_one, Shape.rowMajor_val_two]
    show q.val = 0 * b + q.val
    omega)

/-- A vector broadcast to a column and then along the lanes, read at (p, c). -/
theorem bcast_col_apply {a b : ℕ} (ha : a ≠ 1) (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 v) (ix2 p c) = v (ix1 p) := by
  rw [broadcastInDim_apply (![0, 1] : Fin 2 → Fin 2) h2 _ (ix2 p c) (ix2 p (0 : Fin 1)) (fun ax => by
    match ax with
    | ⟨0, _⟩ => show p.val = if a = 1 then 0 else p.val; rw [if_neg ha]
    | ⟨1, _⟩ => rfl)]
  exact broadcastInDim_apply (![0] : Fin 1 → Fin 2) h1 v (ix2 p (0 : Fin 1)) (ix1 p) (fun ax => by
    match ax with
    | ⟨0, _⟩ => show p.val = if a = 1 then 0 else p.val; rw [if_neg ha])

/-- A vector broadcast to a row and then along the rows, read at (p, c). -/
theorem bcast_row_apply {a b : ℕ} (hb : b ≠ 1) (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![1, b]⟩ (![1] : Fin 1 → Fin 2) h1 v) (ix2 p c) = v (ix1 c) := by
  rw [broadcastInDim_apply (![0, 1] : Fin 2 → Fin 2) h2 _ (ix2 p c) (ix2 (0 : Fin 1) c) (fun ax => by
    match ax with
    | ⟨0, _⟩ => rfl
    | ⟨1, _⟩ => show c.val = if b = 1 then 0 else c.val; rw [if_neg hb])]
  exact broadcastInDim_apply (![1] : Fin 1 → Fin 2) h1 v (ix2 (0 : Fin 1) c) (ix1 c) (fun ax => by
    match ax with
    | ⟨0, _⟩ => show c.val = if b = 1 then 0 else c.val; rw [if_neg hb])

end Cert.Gcn.ColumnRowRead
-- ==== Proof.HostLayer.lean ====
/-
  The reference's host operations for one layer and for the readout, read at an index.

  One graph-convolution layer on the host is a product of two arrays by broadcast columns, a matrix product, the
  addition of a broadcast bias row and, for the hidden layers, a clamp at zero. Read at node r and feature q this is
  the finite expression of the specification: the matrix product is the sum over the 128 input features, a column
  broadcast along the features reads the node's entry, a row broadcast along the nodes reads the feature's entry.
  The readout's two results likewise: a matrix product with a single column plus a scalar, and a sum over all nodes.
-/
import proofs.«134515_j11364483465281_1_alg».proof.Proof.Gen.ReferenceIdeal
import proofs.«134515_j11364483465281_1_alg».proof.Proof.Spec
import proofs.«134515_j11364483465281_1_alg».proof.Proof.LibDotIx2
import proofs.«134515_j11364483465281_1_alg».proof.Proof.LibColumnRowRead
import Idealize.ShloMosaic.Lib.Pipeline.Value
import Idealize.ShloMosaic.Lib.ValueIdx
import Idealize.ShloMosaic.PureOps.Ideal.Laws

noncomputable section

open scoped BigOperators

namespace Cert.ReferenceIdeal.HostLayer

open Cert.ReferenceIdeal Cert.ReferenceIdeal.Gen
open Idealize.ShloMosaic Idealize.ShloMosaic.ValueIdx Cert.Gcn.ColumnRowRead

/-! ## The three matrix products are plain row-by-column products -/

theorem plain_hidden : PlainDot (M := 50000) (K := 128) (N := 128) dot_S50000x128_S128x128_S50000x128_1_0_0_1_n_n where
  rank := rfl
  size := rfl
  l0 := fun j q => by
    unfold DotDims.lhsIdx
    rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
    rfl
  l1 := fun j q => dot_S50000x128_S128x128_S50000x128_1_0_0_1_n_n.lhsIdx_val_of_single rfl j q
  r0 := fun j q => dot_S50000x128_S128x128_S50000x128_1_0_0_1_n_n.rhsIdx_val_of_single rfl j q
  r1 := fun j q => by
    unfold DotDims.rhsIdx
    rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
    rfl

theorem plain_last : PlainDot (M := 50000) (K := 128) (N := 64) dot_S50000x128_S128x64_S50000x64_1_0_0_1_n_n where
  rank := rfl
  size := rfl
  l0 := fun j q => by
    unfold DotDims.lhsIdx
    rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
    rfl
  l1 := fun j q => dot_S50000x128_S128x64_S50000x64_1_0_0_1_n_n.lhsIdx_val_of_single rfl j q
  r0 := fun j q => dot_S50000x128_S128x64_S50000x64_1_0_0_1_n_n.rhsIdx_val_of_single rfl j q
  r1 := fun j q => by
    unfold DotDims.rhsIdx
    rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
    rfl

theorem plain_proj : PlainDot (M := 50000) (K := 64) (N := 1) dot_S50000x64_S64x1_S50000x1_1_0_0_1_n_n where
  rank := rfl
  size := rfl
  l0 := fun j q => by
    unfold DotDims.lhsIdx
    rw [dif_neg (show ¬(0 : Fin S50000x64.rank) ∈ dot_S50000x64_S64x1_S50000x1_1_0_0_1_n_n.lhsBatch by decide), dif_pos (show (0 : Fin S50000x64.rank) ∈ dot_S50000x64_S64x1_S50000x1_1_0_0_1_n_n.lhsNonContracting by decide)]
    rfl
  l1 := fun j q => dot_S50000x64_S64x1_S50000x1_1_0_0_1_n_n.lhsIdx_val_of_single rfl j q
  r0 := fun j q => dot_S50000x64_S64x1_S50000x1_1_0_0_1_n_n.rhsIdx_val_of_single rfl j q
  r1 := fun j q => by
    unfold DotDims.rhsIdx
    rw [dif_neg (show ¬(1 : Fin S64x1.rank) ∈ dot_S50000x64_S64x1_S50000x1_1_0_0_1_n_n.rhsBatch by decide), dif_pos (show (1 : Fin S64x1.rank) ∈ dot_S50000x64_S64x1_S50000x1_1_0_0_1_n_n.rhsNonContracting by decide)]
    rfl

/-! ## Small reads -/

/-- The zero splat over the hidden layer's shape reads the zero word everywhere. -/
theorem zeros_apply (j : S50000x128.Idx) :
    broadcastInDim S50000x128 ![] bcast_S_S50000x128 (constant (F := Ideal) S_ .f32 0x00000000#32) j = Ideal.ofBits .f32 0x00000000#32 :=
  (broadcastInDim_apply _ bcast_S_S50000x128 (constant (F := Ideal) S_ .f32 0x00000000#32) j (fun a => a.elim0) (fun a => a.elim0)).trans rfl

/-- A one-entry vector broadcast to a one-by-one array and then along the nodes reads its entry. -/
theorem scalar_column_apply (v : FVec Ideal S1 .f32) (r : Fin 50000) :
    broadcastInDim S50000x1 ![0, 1] bcast_S1x1_S50000x1_0_1 (broadcastInDim S1x1 ![1] bcast_S1_S1x1_1 v) (ix2 r (0 : Fin 1)) = v (ix1 (0 : Fin 1)) := by
  rw [broadcastInDim_apply (![0, 1] : Fin 2 → Fin 2) bcast_S1x1_S50000x1_0_1 _ (ix2 r (0 : Fin 1)) (ix2 (0 : Fin 1) (0 : Fin 1)) (fun ax => by
    match ax with
    | ⟨0, _⟩ => rfl
    | ⟨1, _⟩ => rfl)]
  exact broadcastInDim_apply (![1] : Fin 1 → Fin 2) bcast_S1_S1x1_1 v (ix2 (0 : Fin 1) (0 : Fin 1)) (ix1 (0 : Fin 1)) (fun ax => by
    match ax with
    | ⟨0, _⟩ => rfl)

/-! ## A layer -/

/-- A hidden layer on the host is the specification's hidden layer, whatever array carries the two normalisers
    side by side (`hn0`, `hn1`) and whatever row carries the bias (`hb`). -/
theorem hidden_eq (A : FVec Ideal S50000x128 .f32) (ns nd : FVec Ideal S50000 .f32) (W : FVec Ideal S128x128 .f32) (b : FVec Ideal S128 .f32)
    (norms : FVec Ideal ⟨2, ![50000, 2]⟩ .f32) (brow : FVec Ideal S1x128 .f32)
    (hn0 : ∀ r : Fin 50000, norms (ix2 r (0 : Fin 2)) = ns (ix1 r)) (hn1 : ∀ r : Fin 50000, norms (ix2 r (1 : Fin 2)) = nd (ix1 r))
    (hb : ∀ q : Fin 128, brow (ix2 (0 : Fin 1) q) = b (ix1 q)) :
    mulf
      (maximumf
        (addf
          (Host.dotGeneral dot_S50000x128_S128x128_S50000x128_1_0_0_1_n_n none
            (mulf A (broadcastInDim S50000x128 ![0, 1] bcast_S50000x1_S50000x128_0_1 (broadcastInDim S50000x1 ![0] bcast_S50000_S50000x1_0 nd))) W)
          (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32)))
      (broadcastInDim S50000x128 ![0, 1] bcast_S50000x1_S50000x128_0_1 (broadcastInDim S50000x1 ![0] bcast_S50000_S50000x1_0 ns))
      = Cert.GraphConv.layerAct A norms W brow := by
  funext i
  obtain ⟨r, q, rfl⟩ : ∃ (r : Fin 50000) (q : Fin 128), i = ix2 r q := ⟨i 0, i 1, eq_ix2 i⟩
  show max (Host.dotGeneral dot_S50000x128_S128x128_S50000x128_1_0_0_1_n_n none
            (mulf A (broadcastInDim S50000x128 ![0, 1] bcast_S50000x1_S50000x128_0_1 (broadcastInDim S50000x1 ![0] bcast_S50000_S50000x1_0 nd))) W (ix2 r q)
          + broadcastInDim S50000x128 ![0, 1] bcast_S1x128_S50000x128_0_1 (broadcastInDim S1x128 ![1] bcast_S128_S1x128_1 b) (ix2 r q))
        (broadcastInDim S50000x128 ![] bcast_S_S50000x128 (constant (F := Ideal) S_ .f32 0x00000000#32) (ix2 r q))
      * broadcastInDim S50000x128 ![0, 1] bcast_S50000x1_S50000x128_0_1 (broadcastInDim S50000x1 ![0] bcast_S50000_S50000x1_0 ns) (ix2 r q)
      = Cert.GraphConv.layerActAt A norms W brow r q
  unfold Cert.GraphConv.layerActAt
  rw [zeros_apply, bcast_col_apply (by decide) ns bcast_S50000_S50000x1_0 bcast_S50000x1_S50000x128_0_1 r q,
    bcast_row_apply (by decide) b bcast_S128_S1x128_1 bcast_S1x128_S50000x128_0_1 r q, hn0 r, hb q]
  simp only [Host.dotGeneral]
  rw [dotGeneral_ix2_any plain_hidden]
  refine congrArg (fun s => max (s + b (ix1 q)) (Ideal.ofBits .f32 0x00000000#32) * ns (ix1 r)) (Finset.sum_congr rfl fun k _ => ?_)
  show A (ix2 r k) * broadcastInDim S50000x128 ![0, 1] bcast_S50000x1_S50000x128_0_1 (broadcastInDim S50000x1 ![0] bcast_S50000_S50000x1_0 nd) (ix2 r k) * W (ix2 k q) = _
  rw [bcast_col_apply (by decide) nd bcast_S50000_S50000x1_0 bcast_S50000x1_S50000x128_0_1 r k, hn1 r]

/-- The last layer on the host is the specification's last layer. -/
theorem last_eq (A : FVec Ideal S50000x128 .f32) (nd : FVec Ideal S50000 .f32) (W : FVec Ideal S128x64 .f32) (b : FVec Ideal S64 .f32)
    (norms : FVec Ideal ⟨2, ![50000, 2]⟩ .f32) (brow : FVec Ideal S1x64 .f32)
    (hn1 : ∀ r : Fin 50000, norms (ix2 r (1 : Fin 2)) = nd (ix1 r))
    (hb : ∀ q : Fin 64, brow (ix2 (0 : Fin 1) q) = b (ix1 q)) :
    addf
      (Host.dotGeneral dot_S50000x128_S128x64_S50000x64_1_0_0_1_n_n none
        (mulf A (broadcastInDim S50000x128 ![0, 1] bcast_S50000x1_S50000x128_0_1 (broadcastInDim S50000x1 ![0] bcast_S50000_S50000x1_0 nd))) W)
      (broadcastInDim S50000x64 ![0, 1] bcast_S1x64_S50000x64_0_1 (broadcastInDim S1x64 ![1] bcast_S64_S1x64_1 b))
      = Cert.GraphConv.layerLin A norms W brow := by
  funext i
  obtain ⟨r, q, rfl⟩ : ∃ (r : Fin 50000) (q : Fin 64), i = ix2 r q := ⟨i 0, i 1, eq_ix2 i⟩
  show Host.dotGeneral dot_S50000x128_S128x64_S50000x64_1_0_0_1_n_n none
          (mulf A (broadcastInDim S50000x128 ![0, 1] bcast_S50000x1_S50000x128_0_1 (broadcastInDim S50000x1 ![0] bcast_S50000_S50000x1_0 nd))) W (ix2 r q)
        + broadcastInDim S50000x64 ![0, 1] bcast_S1x64_S50000x64_0_1 (broadcastInDim S1x64 ![1] bcast_S64_S1x64_1 b) (ix2 r q)
      = Cert.GraphConv.layerLinAt A norms W brow r q
  unfold Cert.GraphConv.layerLinAt
  rw [bcast_row_apply (by decide) b bcast_S64_S1x64_1 bcast_S1x64_S50000x64_0_1 r q, hb q]
  simp only [Host.dotGeneral]
  rw [dotGeneral_ix2_any plain_last]
  refine congrArg (fun s => s + b (ix1 q)) (Finset.sum_congr rfl fun k _ => ?_)
  show A (ix2 r k) * broadcastInDim S50000x128 ![0, 1] bcast_S50000x1_S50000x128_0_1 (broadcastInDim S50000x1 ![0] bcast_S50000_S50000x1_0 nd) (ix2 r k) * W (ix2 k q) = _
  rw [bcast_col_apply (by decide) nd bcast_S50000_S50000x1_0 bcast_S50000x1_S50000x128_0_1 r k, hn1 r]

/-! ## The readout -/

/-- The per-node projection on the host is the specification's. -/
theorem proj_eq (h : FVec Ideal S50000x64 .f32) (Wp : FVec Ideal S64x1 .f32) (bp : FVec Ideal S1 .f32) (bp2 : FVec Ideal S1x1 .f32)
    (hb : bp2 (ix2 (0 : Fin 1) (0 : Fin 1)) = bp (ix1 (0 : Fin 1))) :
    addf (Host.dotGeneral dot_S50000x64_S64x1_S50000x1_1_0_0_1_n_n none h Wp)
      (broadcastInDim S50000x1 ![0, 1] bcast_S1x1_S50000x1_0_1 (broadcastInDim S1x1 ![1] bcast_S1_S1x1_1 bp))
      = Cert.GraphConv.proj h Wp bp2 := by
  funext i
  obtain ⟨r, z, rfl⟩ : ∃ (r : Fin 50000) (z : Fin 1), i = ix2 r z := ⟨i 0, i 1, eq_ix2 i⟩
  obtain rfl : z = 0 := Subsingleton.elim _ _
  show Host.dotGeneral dot_S50000x64_S64x1_S50000x1_1_0_0_1_n_n none h Wp (ix2 r (0 : Fin 1))
        + broadcastInDim S50000x1 ![0, 1] bcast_S1x1_S50000x1_0_1 (broadcastInDim S1x1 ![1] bcast_S1_S1x1_1 bp) (ix2 r (0 : Fin 1))
      = Cert.GraphConv.projAt h Wp bp2 r
  unfold Cert.GraphConv.projAt
  rw [scalar_column_apply, hb]
  simp only [Host.dotGeneral]
  rw [dotGeneral_ix2_any plain_proj]

/-- The node sum on the host, laid out as a row, is the specification's. -/
theorem nodeSum_eq (h : FVec Ideal S50000x64 .f32) :
    broadcastInDim S1x64 ![1] bcast_S64_S1x64_1 (Host.reduceAdd h (constant (F := Ideal) S_ .f32 0x00000000#32) reducesTo_S50000x64_S64_d0 h_S_)
      = Cert.GraphConv.nodeSum h := by
  funext i
  obtain ⟨z, q, rfl⟩ : ∃ (z : Fin 1) (q : Fin 64), i = ix2 z q := ⟨i 0, i 1, eq_ix2 i⟩
  rw [broadcastInDim_apply (![1] : Fin 1 → Fin 2) bcast_S64_S1x64_1 _ (ix2 z q) (ix1 q) (fun ax => by
    match ax with
    | ⟨0, _⟩ => show q.val = if (64 : Nat) = 1 then 0 else q.val; rw [if_neg (by decide)])]
  show Host.reduceAdd h (constant (F := Ideal) S_ .f32 0x00000000#32) reducesTo_S50000x64_S64_d0 h_S_ (ix1 q) = Cert.GraphConv.nodeSumAt h q
  unfold Cert.GraphConv.nodeSumAt
  simp only [Host.reduceAdd, Ideal.hostReduceAdd_def]
  rw [Ideal.hostReduceAdd_single reducesTo_S50000x64_S64_d0 (by decide)]
  show Ideal.ofBits .f32 0x00000000#32 + _ = _
  rw [Ideal.ofBits_zero_f32, zero_add]
  refine Finset.sum_congr rfl fun k _ => ?_
  exact congrArg h (funext fun a => Fin.ext (by match a with | ⟨0, _⟩ => rfl | ⟨1, _⟩ => rfl))

end Cert.ReferenceIdeal.HostLayer

end
-- ==== Proof.RefValue.lean ====
/-
  The reference's results are the network of the specification.

  The reference applies, layer after layer, the same message passing as the kernel's program and then the layer's
  host operations; layer by layer its value is the specification's layer of the same operands, so its two results
  are the network's.
-/
import proofs.«134515_j11364483465281_1_alg».proof.Proof.Gen.ReferenceIdeal.Read
import proofs.«134515_j11364483465281_1_alg».proof.Proof.HostLayer
import proofs.«134515_j11364483465281_1_alg».proof.Proof.Net

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.KernelIdeal.Chain (degNorm asColumn normPair scaledFeatures edgeSum valueHead)
open Cert.KernelIdeal.Net (hidden0 hidden1 hidden2 logits perNode pooled normPair_src normPair_dst biasRow128_apply biasRow64_apply biasScalar_apply)

variable (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal)) (x13 : (⟨S64x1, .f32⟩ : BufTy).Contents (Elt Ideal)) (x14 : (⟨S1, .f32⟩ : BufTy).Contents (Elt Ideal))

/-! ## The shared host operations -/

/-- The reference's source-side normaliser is the kernel program's. -/
theorem norm_src : val_main_v9 (F := Ideal) x1 = degNorm (F := Ideal) x1 := rfl

/-- The reference's destination-side normaliser is the kernel program's. -/
theorem norm_dst : val_main_v12 (F := Ideal) x2 = degNorm (F := Ideal) x2 := rfl

/-- The first aggregate: message passing over the scaled features. -/
theorem agg0 : val_main_v26 (F := Ideal) x0 x1 x2 = edgeSum (F := Ideal) (scaledFeatures (F := Ideal) x0 x1) x1 x2 := rfl

/-- The later aggregates: message passing over the previous layer. -/
theorem agg1 : val_main_v45 (F := Ideal) x0 x1 x2 x3 x4 = edgeSum (F := Ideal) (val_main_v35 (F := Ideal) x0 x1 x2 x3 x4) x1 x2 := rfl
theorem agg2 : val_main_v64 (F := Ideal) x0 x1 x2 x3 x4 x5 x6 = edgeSum (F := Ideal) (val_main_v54 (F := Ideal) x0 x1 x2 x3 x4 x5 x6) x1 x2 := rfl
theorem agg3 : val_main_v83 (F := Ideal) x0 x1 x2 x3 x4 x5 x6 x7 x8 = edgeSum (F := Ideal) (val_main_v73 (F := Ideal) x0 x1 x2 x3 x4 x5 x6 x7 x8) x1 x2 := rfl

/-- The normalisers' array read at its two columns, in the reference's names. -/
theorem pair_src (r : Fin 50000) : normPair (F := Ideal) x1 x2 (ix2 r (0 : Fin 2)) = val_main_v9 (F := Ideal) x1 (ix1 r) := normPair_src x1 x2 r
theorem pair_dst (r : Fin 50000) : normPair (F := Ideal) x1 x2 (ix2 r (1 : Fin 2)) = val_main_v12 (F := Ideal) x2 (ix1 r) := normPair_dst x1 x2 r

/-! ## Layer by layer -/

theorem layer0 : val_main_v35 (F := Ideal) x0 x1 x2 x3 x4 = hidden0 x0 x1 x2 x3 x4 := by
  refine (HostLayer.hidden_eq (val_main_v26 (F := Ideal) x0 x1 x2) (val_main_v9 (F := Ideal) x1) (val_main_v12 (F := Ideal) x2) x3 x4
    (normPair (F := Ideal) x1 x2) (shapeCast Cert.KernelIdeal.S1x128 x4 Cert.KernelIdeal.Gen.shapeCasts_S128_S1x128)
    (pair_src x1 x2) (pair_dst x1 x2) (biasRow128_apply x4) : val_main_v35 (F := Ideal) x0 x1 x2 x3 x4 = _).trans ?_
  rw [agg0]
  rfl

theorem layer1 : val_main_v54 (F := Ideal) x0 x1 x2 x3 x4 x5 x6 = hidden1 x0 x1 x2 x3 x4 x5 x6 := by
  refine (HostLayer.hidden_eq (val_main_v45 (F := Ideal) x0 x1 x2 x3 x4) (val_main_v9 (F := Ideal) x1) (val_main_v12 (F := Ideal) x2) x5 x6
    (normPair (F := Ideal) x1 x2) (shapeCast Cert.KernelIdeal.S1x128 x6 Cert.KernelIdeal.Gen.shapeCasts_S128_S1x128)
    (pair_src x1 x2) (pair_dst x1 x2) (biasRow128_apply x6) : val_main_v54 (F := Ideal) x0 x1 x2 x3 x4 x5 x6 = _).trans ?_
  rw [agg1, layer0]
  rfl

theorem layer2 : val_main_v73 (F := Ideal) x0 x1 x2 x3 x4 x5 x6 x7 x8 = hidden2 x0 x1 x2 x3 x4 x5 x6 x7 x8 := by
  refine (HostLayer.hidden_eq (val_main_v64 (F := Ideal) x0 x1 x2 x3 x4 x5 x6) (val_main_v9 (F := Ideal) x1) (val_main_v12 (F := Ideal) x2) x7 x8
    (normPair (F := Ideal) x1 x2) (shapeCast Cert.KernelIdeal.S1x128 x8 Cert.KernelIdeal.Gen.shapeCasts_S128_S1x128)
    (pair_src x1 x2) (pair_dst x1 x2) (biasRow128_apply x8) : val_main_v73 (F := Ideal) x0 x1 x2 x3 x4 x5 x6 x7 x8 = _).trans ?_
  rw [agg2, layer1]
  rfl

theorem layer3 : val_main_v89 (F := Ideal) x0 x1 x2 x3 x4 x5 x6 x7 x8 x9 x10 = logits x0 x1 x2 x3 x4 x5 x6 x7 x8 x9 x10 := by
  refine (HostLayer.last_eq (val_main_v83 (F := Ideal) x0 x1 x2 x3 x4 x5 x6 x7 x8) (val_main_v12 (F := Ideal) x2) x9 x10
    (normPair (F := Ideal) x1 x2) (shapeCast Cert.KernelIdeal.S1x64 x10 Cert.KernelIdeal.Gen.shapeCasts_S64_S1x64)
    (pair_dst x1 x2) (biasRow64_apply x10) : val_main_v89 (F := Ideal) x0 x1 x2 x3 x4 x5 x6 x7 x8 x9 x10 = _).trans ?_
  rw [agg3, layer2]
  rfl

/-! ## The two results -/

/-- The reference's per-node result is the network's. -/
theorem perNode_eq : val_main_v95 (F := Ideal) x0 x1 x2 x3 x4 x5 x6 x7 x8 x9 x10 x11 x12 = perNode x0 x1 x2 x3 x4 x5 x6 x7 x8 x9 x10 x11 x12 := by
  refine (HostLayer.proj_eq (val_main_v89 (F := Ideal) x0 x1 x2 x3 x4 x5 x6 x7 x8 x9 x10) x11 x12
    (shapeCast Cert.KernelIdeal.S1x1 x12 Cert.KernelIdeal.Gen.shapeCasts_S1_S1x1) (biasScalar_apply x12) : val_main_v95 (F := Ideal) x0 x1 x2 x3 x4 x5 x6 x7 x8 x9 x10 x11 x12 = _).trans ?_
  rw [layer3]
  rfl

/-- The reference's pooled row is the network's node sum. -/
theorem pooledRow_eq : val_main_v91 (F := Ideal) x0 x1 x2 x3 x4 x5 x6 x7 x8 x9 x10 = Cert.GraphConv.nodeSum (logits x0 x1 x2 x3 x4 x5 x6 x7 x8 x9 x10) := by
  refine (HostLayer.nodeSum_eq (val_main_v89 (F := Ideal) x0 x1 x2 x3 x4 x5 x6 x7 x8 x9 x10) : val_main_v91 (F := Ideal) x0 x1 x2 x3 x4 x5 x6 x7 x8 x9 x10 = _).trans ?_
  rw [layer3]

/-- The reference's pooled result is the network's. -/
theorem pooled_eq : val_main_v98 (F := Ideal) x0 x1 x2 x3 x4 x5 x6 x7 x8 x9 x10 x13 x14 = pooled x0 x1 x2 x3 x4 x5 x6 x7 x8 x9 x10 x13 x14 := by
  show valueHead (F := Ideal) (val_main_v91 (F := Ideal) x0 x1 x2 x3 x4 x5 x6 x7 x8 x9 x10) x13 x14 = _
  rw [pooledRow_eq]
  rfl

end Cert.ReferenceIdeal.RefValue

end
-- ==== Proof.lean ====
/-
  A four-layer graph convolution with a pooled readout: the kernel program against its reference, on the extended reals.

  Both programs compute the two degree normalisers, scale the input features, and then four times pass messages
  along the edges (gather the source rows, add them into the destination rows) and apply a dense layer; the readout
  projects every node's last-layer row to a scalar and pools the last layer over the nodes into a second, one-by-one
  result. The kernel program runs each dense layer and the readout as a tiled region over blocks of 5000 nodes, with
  the clamp at zero and the rescaling for the next gather fused into the layer, and accumulates the pooled row block
  by block; the reference does the same arithmetic with whole-array host operations. Region by region the kernel's
  output array is the specification's layer of the arrays the region finds (the blocks of the output are blocks of
  one whole-array function, and they cover it; the pooled row is the sum over the ten blocks of the blocks' column
  sums, which is the column sum over all nodes because addition of extended reals is commutative and associative),
  and layer by layer the reference's host operations read at an index are the same finite expressions. No finiteness
  of the inputs is used. The idealized kernel program is the printed program read at the exact instance: nothing was
  rewritten, so there is nothing to preserve.
-/
import proofs.«134515_j11364483465281_1_alg».proof.Defs
import proofs.«134515_j11364483465281_1_alg».proof.Proof.Gen.Kernel
import proofs.«134515_j11364483465281_1_alg».proof.Proof.Gen.Kernel.Frame
import proofs.«134515_j11364483465281_1_alg».proof.Proof.Gen.KernelIdeal
import proofs.«134515_j11364483465281_1_alg».proof.Proof.Gen.KernelIdeal.Frame
import proofs.«134515_j11364483465281_1_alg».proof.Proof.Gen.ReferenceIdeal
import proofs.«134515_j11364483465281_1_alg».proof.Proof.Gen.ReferenceIdeal.Run
import proofs.«134515_j11364483465281_1_alg».proof.Proof.Gen.Pre_finite_inputs
import proofs.«134515_j11364483465281_1_alg».proof.Proof.KernelValue
import proofs.«134515_j11364483465281_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the network of the specification evaluated at arguments that agree. -/
theorem algebraic : Cert.algebraic_KernelIdeal_ReferenceIdeal := by
  intro m ρ m' ρ' _ hagree
  refine ⟨_, _, Cert.KernelIdeal.Value.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12, a13, a14⟩ := hagree c
    rw [(h c).1, Cert.ReferenceIdeal.Read.val_main_v95_eq, Cert.ReferenceIdeal.RefValue.perNode_eq,
      a0, a1, a2, a3, a4, a5, a6, a7, a8, a9, a10, a11, a12]
  · obtain ⟨a0, a1, a2, a3, a4, a5, a6, a7, a8, a9, a10, a11, a12, a13, a14⟩ := hagree c
    rw [(h c).2.1, Cert.ReferenceIdeal.Read.val_main_v98_eq, Cert.ReferenceIdeal.RefValue.pooled_eq,
      a0, a1, a2, a3, a4, a5, a6, a7, a8, a9, a10, a13, a14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
